-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S8x3x64x4096 : Shape := ⟨4, ![8, 3, 64, 4096]⟩
abbrev S8x3x4096x64 : Shape := ⟨4, ![8, 3, 4096, 64]⟩
abbrev S2048 : Shape := ⟨1, ![2048]⟩
abbrev S8 : Shape := ⟨1, ![8]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S8x3x64x4096 : S_.BroadcastsInDim S8x3x64x4096 (![] : Fin 0 → Fin S8x3x64x4096.rank)
  reducesTo_S8x3x64x4096_S_d0_1_2_3 : S8x3x64x4096.ReducesTo [0, 1, 2, 3] S_
  bcast_S_S8x3x4096x64 : S_.BroadcastsInDim S8x3x4096x64 (![] : Fin 0 → Fin S8x3x4096x64.rank)
  reducesTo_S8x3x4096x64_S_d0_1_2_3 : S8x3x4096x64.ReducesTo [0, 1, 2, 3] S_

variable [Facts]

def fn {F : FTy → Type} [FloatOps F] (main_arg0 : FVec F S2048x4096 .f32) (main_arg1 : FVec F S8x3x64x4096 .f32) (main_arg2 : FVec F S8x3x4096x64 .f32) (main_arg3 : IVec S2048 32) (main_arg4 : IVec S8 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S8x3x64x4096 .f32 := Host.absf main_arg1
  let main_cst_0 : FVec F S_ .f32 := constant S_ .f32 0x7F800000#32
  let main_v5 : FVec F S8x3x64x4096 .f32 := broadcastInDim S8x3x64x4096 ![] bcast_S_S8x3x64x4096 main_cst_0
  let main_v6 : IVec S8x3x64x4096 1 := cmpf .olt main_v4 main_v5
  let main_c_1 : IVec S_ 1 := constantI S_ 1 1#1
  let main_v7 : IVec S_ 1 := (fun x v => Host.reduce IntOp.andi x v reducesTo_S8x3x64x4096_S_d0_1_2_3 h_S_) main_v6 main_c_1
  let main_v8 : IVec S_ 1 := andi main_v3 main_v7
  let main_v9 : FVec F S8x3x4096x64 .f32 := Host.absf main_arg2
  let main_cst_2 : FVec F S_ .f32 := constant S_ .f32 0x7F800000#32
  let main_v10 : FVec F S8x3x4096x64 .f32 := broadcastInDim S8x3x4096x64 ![] bcast_S_S8x3x4096x64 main_cst_2
  let main_v11 : IVec S8x3x4096x64 1 := cmpf .olt main_v9 main_v10
  let main_c_3 : IVec S_ 1 := constantI S_ 1 1#1
  let main_v12 : IVec S_ 1 := (fun x v => Host.reduce IntOp.andi x v reducesTo_S8x3x4096x64_S_d0_1_2_3 h_S_) main_v11 main_c_3
  let main_v13 : IVec S_ 1 := andi main_v8 main_v12
  main_v13
-- ==== Kernel.lean ====
abbrev S2048x4096 : Shape := ⟨2, ![2048, 4096]⟩
abbrev S8x3x64x4096 : Shape := ⟨4, ![8, 3, 64, 4096]⟩
abbrev S8x3x4096x64 : Shape := ⟨4, ![8, 3, 4096, 64]⟩
abbrev S2048 : Shape := ⟨1, ![2048]⟩
abbrev S8 : Shape := ⟨1, ![8]⟩
abbrev S64 : Shape := ⟨1, ![64]⟩
abbrev S1x64 : Shape := ⟨2, ![1, 64]⟩
abbrev S8x1 : Shape := ⟨2, ![8, 1]⟩
abbrev S8x64 : Shape := ⟨2, ![8, 64]⟩
abbrev S8x1x64x1 : Shape := ⟨4, ![8, 1, 64, 1]⟩
abbrev S3x8x64x4096 : Shape := ⟨4, ![3, 8, 64, 4096]⟩
abbrev S1536x4096 : Shape := ⟨2, ![1536, 4096]⟩
abbrev S3x4096x8x64 : Shape := ⟨4, ![3, 4096, 8, 64]⟩
abbrev S3x4096x512 : Shape := ⟨3, ![3, 4096, 512]⟩
abbrev S2048x1 : Shape := ⟨2, ![2048, 1]⟩
abbrev S2048x12288 : Shape := ⟨2, ![2048, 12288]⟩
abbrev S256x4096 : Shape := ⟨2, ![256, 4096]⟩
abbrev S256x1 : Shape := ⟨2, ![256, 1]⟩
abbrev S256x1536 : Shape := ⟨2, ![256, 1536]⟩
abbrev S256x512 : Shape := ⟨2, ![256, 512]⟩
abbrev S1x512 : Shape := ⟨2, ![1, 512]⟩
abbrev S1x4096x512 : Shape := ⟨3, ![1, 4096, 512]⟩
abbrev S4096x512 : Shape := ⟨2, ![4096, 512]⟩

abbrev nBuf : Space → Nat
  | .hbm => 24
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S8x3x64x4096, .f32⟩
  | .hbm, ⟨2, _⟩ => ⟨S8x3x4096x64, .f32⟩
  | .hbm, ⟨3, _⟩ => ⟨S2048, .i32⟩
  | .hbm, ⟨4, _⟩ => ⟨S8, .i32⟩
  | .hbm, ⟨5, _⟩ => ⟨S64, .i32⟩
  | .hbm, ⟨6, _⟩ => ⟨S1x64, .i32⟩
  | .hbm, ⟨7, _⟩ => ⟨S8x1, .i32⟩
  | .hbm, ⟨8, _⟩ => ⟨S8x64, .i32⟩
  | .hbm, ⟨9, _⟩ => ⟨S8x64, .i32⟩
  | .hbm, ⟨10, _⟩ => ⟨S8x64, .i1⟩
  | .hbm, ⟨11, _⟩ => ⟨S8x64, .f32⟩
  | .hbm, ⟨12, _⟩ => ⟨S8x1x64x1, .f32⟩
  | .hbm, ⟨13, _⟩ => ⟨S8x3x64x4096, .f32⟩
  | .hbm, ⟨14, _⟩ => ⟨S8x3x64x4096, .f32⟩
  | .hbm, ⟨15, _⟩ => ⟨S3x8x64x4096, .f32⟩
  | .hbm, ⟨16, _⟩ => ⟨S1536x4096, .f32⟩
  | .hbm, ⟨17, _⟩ => ⟨S1536x4096, .bf16⟩
  | .hbm, ⟨18, _⟩ => ⟨S3x4096x8x64, .f32⟩
  | .hbm, ⟨19, _⟩ => ⟨S3x4096x512, .f32⟩
  | .hbm, ⟨20, _⟩ => ⟨S3x4096x512, .bf16⟩
  | .hbm, ⟨21, _⟩ => ⟨S2048x4096, .bf16⟩
  | .hbm, ⟨22, _⟩ => ⟨S2048x1, .i32⟩
  | .hbm, ⟨23, _⟩ => ⟨S2048x12288, .f32⟩
  | .local _ .vmem, ⟨0, _⟩ => ⟨S256x4096, .bf16⟩
  | .local _ .vmem, ⟨1, _⟩ => ⟨S256x4096, .bf16⟩
  | .local _ .vmem, ⟨2, _⟩ => ⟨S256x1, .i32⟩
  | .local _ .vmem, ⟨3, _⟩ => ⟨S256x1, .i32⟩
  | .local _ .vmem, ⟨4, _⟩ => ⟨S1536x4096, .bf16⟩
  | .local _ .vmem, ⟨5, _⟩ => ⟨S3x4096x512, .bf16⟩
  | .local _ .vmem, ⟨6, _⟩ => ⟨S256x4096, .f32⟩
  | .local _ .vmem, ⟨7, _⟩ => ⟨S256x4096, .f32⟩
  | .local _ .vmem, ⟨8, _⟩ => ⟨S256x1536, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_off2 (i : grid0.Coords) : Fin 3 → Nat :=
  let arg1 : BitVec 32 := BitVec.ofNat 32 (i 1).val
  let v42 : Index := Scalar.indexCast arg1
  let c0_8 : Index := 0#32
  let c0_9 : Index := 0#32
  ![v42.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S8x64_S8x1x64x1_0_2 : S8x64.BroadcastsInDim S8x1x64x1 (![0, 2] : Fin 2 → Fin S8x1x64x1.rank)
  bcast_S8x1x64x1_S8x3x64x4096_0_1_2_3 : S8x1x64x1.BroadcastsInDim S8x3x64x4096 (![0, 1, 2, 3] : Fin 4 → Fin S8x3x64x4096.rank)
  transposes_S8x3x64x4096_S3x8x64x4096_1_0_2_3 : S8x3x64x4096.Transposes [1, 0, 2, 3] S3x8x64x4096
  shapeCasts_S3x8x64x4096_S1536x4096 : S3x8x64x4096.ShapeCasts S1536x4096
  bitsLt_bf16_f32 : FTy.bits .bf16 < FTy.bits .f32
  transposes_S8x3x4096x64_S3x4096x8x64_1_2_0_3 : S8x3x4096x64.Transposes [1, 2, 0, 3] S3x4096x8x64
  shapeCasts_S3x4096x8x64_S3x4096x512 : S3x4096x8x64.ShapeCasts S3x4096x512
  shapeCasts_S2048_S2048x1 : S2048.ShapeCasts S2048x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1536x4096_S1536x4096_0_0 : ∀ a, (![0, 0] : Fin 2 → Nat) a + S1536x4096.size a ≤ S1536x4096.size a
  h_S1536x4096 : 0 < S1536x4096.numel
  shapeCasts_S1536x4096_S1536x4096 : S1536x4096.ShapeCasts S1536x4096
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  h_S256x512 : 0 < S256x512.numel
  iota_S1x512_d1_w32 : S1x512.Iotas .tc 32 [1]
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  broadcasts_S1x512_S256x512 : S1x512.Broadcasts S256x512
  h_S1x4096x512 : 0 < S1x4096x512.numel
  shapeCasts_S1x4096x512_S4096x512 : S1x4096x512.ShapeCasts S4096x512
  dot_S256x4096_S1536x4096_S256x1536_1_1_0_0_n_n_wf : DotDims.WF S256x4096 S1536x4096 S256x1536 [1] [1] [0] [0] [] []
  dot_S256x512_S4096x512_S256x4096_1_1_0_0_n_n_wf : DotDims.WF S256x512 S4096x512 S256x4096 [1] [1] [0] [0] [] []
  hrank0 : 0 < grid0.rank
  k0_mult1_dvd : ∀ i : grid0.Coords, 512 ∣ (k0_mult1 i).toNat
  k0_off1_inb : ∀ i : grid0.Coords, ∀ a, (k0_off1 i) a + S256x512.size a ≤ S256x1536.size a
  k0_off2_inb : ∀ i : grid0.Coords, ∀ a, (k0_off2 i) a + S1x4096x512.size a ≤ S3x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .bf16 = 32 ∨ (Rect.block (s := S2048x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x4096.size a ≤ S1536x4096.size a
  hwx0_2 : ∀ i : grid0.Coords, EltTy.bits .bf16 = 32 ∨ (Rect.block (s := S1536x4096) S1536x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x4096x512.size a ≤ S3x4096x512.size a
  hwx0_3 : ∀ i : grid0.Coords, EltTy.bits .bf16 = 32 ∨ (Rect.block (s := S3x4096x512) S3x4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S2048x12288.size a
  hwx0_4 : ∀ i : grid0.Coords, EltTy.bits .f32 = 32 ∨ (Rect.block (s := S2048x12288) S256x4096.size (cc0_transform_4 i) (hinb0_4 i)).WholeWords (EltTy.packing .f32)

variable [Facts₀]

def dot_S256x4096_S1536x4096_S256x1536_1_1_0_0_n_n : DotDims S256x4096 S1536x4096 S256x1536 where
  lhsContracting := [1]
  rhsContracting := [1]
  lhsNonContracting := [0]
  rhsNonContracting := [0]
  lhsBatch := []
  rhsBatch := []
  wf := dot_S256x4096_S1536x4096_S256x1536_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v16) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1536x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S3x4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S8x3x64x4096 : Shape := ⟨4, ![8, 3, 64, 4096]⟩
abbrev S8x3x4096x64 : Shape := ⟨4, ![8, 3, 4096, 64]⟩
abbrev S2048 : Shape := ⟨1, ![2048]⟩
abbrev S8 : Shape := ⟨1, ![8]⟩
abbrev S64 : Shape := ⟨1, ![64]⟩
abbrev S1x64 : Shape := ⟨2, ![1, 64]⟩
abbrev S8x1 : Shape := ⟨2, ![8, 1]⟩
abbrev S8x64 : Shape := ⟨2, ![8, 64]⟩
abbrev S8x1x64x1 : Shape := ⟨4, ![8, 1, 64, 1]⟩
abbrev S_ : Shape := ⟨0, ![]⟩
abbrev S2048x12288 : Shape := ⟨2, ![2048, 12288]⟩
abbrev S2048x1 : Shape := ⟨2, ![2048, 1]⟩
abbrev S1x3x64x4096 : Shape := ⟨4, ![1, 3, 64, 4096]⟩
abbrev S3x64x4096 : Shape := ⟨3, ![3, 64, 4096]⟩
abbrev S3x64x2048 : Shape := ⟨3, ![3, 64, 2048]⟩
abbrev S3x2048x64 : Shape := ⟨3, ![3, 2048, 64]⟩
abbrev S1x3x4096x64 : Shape := ⟨4, ![1, 3, 4096, 64]⟩
abbrev S3x4096x64 : Shape := ⟨3, ![3, 4096, 64]⟩
abbrev S3x4096x2048 : Shape := ⟨3, ![3, 4096, 2048]⟩
abbrev S2048x3x4096 : Shape := ⟨3, ![2048, 3, 4096]⟩

abbrev nBuf : Space → Nat
  | .hbm => 153
  | .vmem => 0
  | .smem => 0
  | _ => 0

abbrev hbmTy0_0 (i : Nat) : BufTy := match i % 128 with
  | 0 => ⟨S2048x4096, .f32⟩
  | 1 => ⟨S8x3x64x4096, .f32⟩
  | 2 => ⟨S8x3x4096x64, .f32⟩
  | 3 => ⟨S2048, .i32⟩
  | 4 => ⟨S8, .i32⟩
  | 5 => ⟨S64, .i32⟩
  | 6 => ⟨S1x64, .i32⟩
  | 7 => ⟨S8x1, .i32⟩
  | 8 => ⟨S8x64, .i32⟩
  | 9 => ⟨S8x64, .i32⟩
  | 10 => ⟨S8x64, .i1⟩
  | 11 => ⟨S8x64, .f32⟩
  | 12 => ⟨S8x1x64x1, .f32⟩
  | 13 => ⟨S8x3x64x4096, .f32⟩
  | 14 => ⟨S8x3x64x4096, .f32⟩
  | 15 => ⟨S_, .f32⟩
  | 16 => ⟨S2048x12288, .f32⟩
  | 17 => ⟨S_, .i32⟩
  | 18 => ⟨S2048, .i32⟩
  | 19 => ⟨S2048, .i1⟩
  | 20 => ⟨S2048, .f32⟩
  | 21 => ⟨S2048x1, .f32⟩
  | 22 => ⟨S2048x4096, .f32⟩
  | 23 => ⟨S2048x4096, .f32⟩
  | 24 => ⟨S1x3x64x4096, .f32⟩
  | 25 => ⟨S3x64x4096, .f32⟩
  | 26 => ⟨S3x64x2048, .f32⟩
  | 27 => ⟨S3x2048x64, .f32⟩
  | 28 => ⟨S1x3x4096x64, .f32⟩
  | 29 => ⟨S3x4096x64, .f32⟩
  | 30 => ⟨S3x4096x2048, .f32⟩
  | 31 => ⟨S2048x3x4096, .f32⟩
  | 32 => ⟨S2048x12288, .f32⟩
  | 33 => ⟨S2048x12288, .f32⟩
  | 34 => ⟨S_, .i32⟩
  | 35 => ⟨S2048, .i32⟩
  | 36 => ⟨S2048, .i1⟩
  | 37 => ⟨S2048, .f32⟩
  | 38 => ⟨S2048x1, .f32⟩
  | 39 => ⟨S2048x4096, .f32⟩
  | 40 => ⟨S2048x4096, .f32⟩
  | 41 => ⟨S1x3x64x4096, .f32⟩
  | 42 => ⟨S3x64x4096, .f32⟩
  | 43 => ⟨S3x64x2048, .f32⟩
  | 44 => ⟨S3x2048x64, .f32⟩
  | 45 => ⟨S1x3x4096x64, .f32⟩
  | 46 => ⟨S3x4096x64, .f32⟩
  | 47 => ⟨S3x4096x2048, .f32⟩
  | 48 => ⟨S2048x3x4096, .f32⟩
  | 49 => ⟨S2048x12288, .f32⟩
  | 50 => ⟨S2048x12288, .f32⟩
  | 51 => ⟨S_, .i32⟩
  | 52 => ⟨S2048, .i32⟩
  | 53 => ⟨S2048, .i1⟩
  | 54 => ⟨S2048, .f32⟩
  | 55 => ⟨S2048x1, .f32⟩
  | 56 => ⟨S2048x4096, .f32⟩
  | 57 => ⟨S2048x4096, .f32⟩
  | 58 => ⟨S1x3x64x4096, .f32⟩
  | 59 => ⟨S3x64x4096, .f32⟩
  | 60 => ⟨S3x64x2048, .f32⟩
  | 61 => ⟨S3x2048x64, .f32⟩
  | 62 => ⟨S1x3x4096x64, .f32⟩
  | 63 => ⟨S3x4096x64, .f32⟩
  | 64 => ⟨S3x4096x2048, .f32⟩
  | 65 => ⟨S2048x3x4096, .f32⟩
  | 66 => ⟨S2048x12288, .f32⟩
  | 67 => ⟨S2048x12288, .f32⟩
  | 68 => ⟨S_, .i32⟩
  | 69 => ⟨S2048, .i32⟩
  | 70 => ⟨S2048, .i1⟩
  | 71 => ⟨S2048, .f32⟩
  | 72 => ⟨S2048x1, .f32⟩
  | 73 => ⟨S2048x4096, .f32⟩
  | 74 => ⟨S2048x4096, .f32⟩
  | 75 => ⟨S1x3x64x4096, .f32⟩
  | 76 => ⟨S3x64x4096, .f32⟩
  | 77 => ⟨S3x64x2048, .f32⟩
  | 78 => ⟨S3x2048x64, .f32⟩
  | 79 => ⟨S1x3x4096x64, .f32⟩
  | 80 => ⟨S3x4096x64, .f32⟩
  | 81 => ⟨S3x4096x2048, .f32⟩
  | 82 => ⟨S2048x3x4096, .f32⟩
  | 83 => ⟨S2048x12288, .f32⟩
  | 84 => ⟨S2048x12288, .f32⟩
  | 85 => ⟨S_, .i32⟩
  | 86 => ⟨S2048, .i32⟩
  | 87 => ⟨S2048, .i1⟩
  | 88 => ⟨S2048, .f32⟩
  | 89 => ⟨S2048x1, .f32⟩
  | 90 => ⟨S2048x4096, .f32⟩
  | 91 => ⟨S2048x4096, .f32⟩
  | 92 => ⟨S1x3x64x4096, .f32⟩
  | 93 => ⟨S3x64x4096, .f32⟩
  | 94 => ⟨S3x64x2048, .f32⟩
  | 95 => ⟨S3x2048x64, .f32⟩
  | 96 => ⟨S1x3x4096x64, .f32⟩
  | 97 => ⟨S3x4096x64, .f32⟩
  | 98 => ⟨S3x4096x2048, .f32⟩
  | 99 => ⟨S2048x3x4096, .f32⟩
  | 100 => ⟨S2048x12288, .f32⟩
  | 101 => ⟨S2048x12288, .f32⟩
  | 102 => ⟨S_, .i32⟩
  | 103 => ⟨S2048, .i32⟩
  | 104 => ⟨S2048, .i1⟩
  | 105 => ⟨S2048, .f32⟩
  | 106 => ⟨S2048x1, .f32⟩
  | 107 => ⟨S2048x4096, .f32⟩
  | 108 => ⟨S2048x4096, .f32⟩
  | 109 => ⟨S1x3x64x4096, .f32⟩
  | 110 => ⟨S3x64x4096, .f32⟩
  | 111 => ⟨S3x64x2048, .f32⟩
  | 112 => ⟨S3x2048x64, .f32⟩
  | 113 => ⟨S1x3x4096x64, .f32⟩
  | 114 => ⟨S3x4096x64, .f32⟩
  | 115 => ⟨S3x4096x2048, .f32⟩
  | 116 => ⟨S2048x3x4096, .f32⟩
  | 117 => ⟨S2048x12288, .f32⟩
  | 118 => ⟨S2048x12288, .f32⟩
  | 119 => ⟨S_, .i32⟩
  | 120 => ⟨S2048, .i32⟩
  | 121 => ⟨S2048, .i1⟩
  | 122 => ⟨S2048, .f32⟩
  | 123 => ⟨S2048x1, .f32⟩
  | 124 => ⟨S2048x4096, .f32⟩
  | 125 => ⟨S2048x4096, .f32⟩
  | 126 => ⟨S1x3x64x4096, .f32⟩
  | 127 => ⟨S3x64x4096, .f32⟩
  | _ => ⟨S2048x4096, .f32⟩

abbrev hbmTy0_1 (i : Nat) : BufTy := match i % 128 with
  | 0 => ⟨S3x64x2048, .f32⟩
  | 1 => ⟨S3x2048x64, .f32⟩
  | 2 => ⟨S1x3x4096x64, .f32⟩
  | 3 => ⟨S3x4096x64, .f32⟩
  | 4 => ⟨S3x4096x2048, .f32⟩
  | 5 => ⟨S2048x3x4096, .f32⟩
  | 6 => ⟨S2048x12288, .f32⟩
  | 7 => ⟨S2048x12288, .f32⟩
  | 8 => ⟨S_, .i32⟩
  | 9 => ⟨S2048, .i32⟩
  | 10 => ⟨S2048, .i1⟩
  | 11 => ⟨S2048, .f32⟩
  | 12 => ⟨S2048x1, .f32⟩
  | 13 => ⟨S2048x4096, .f32⟩
  | 14 => ⟨S2048x4096, .f32⟩
  | 15 => ⟨S1x3x64x4096, .f32⟩
  | 16 => ⟨S3x64x4096, .f32⟩
  | 17 => ⟨S3x64x2048, .f32⟩
  | 18 => ⟨S3x2048x64, .f32⟩
  | 19 => ⟨S1x3x4096x64, .f32⟩
  | 20 => ⟨S3x4096x64, .f32⟩
  | 21 => ⟨S3x4096x2048, .f32⟩
  | 22 => ⟨S2048x3x4096, .f32⟩
  | 23 => ⟨S2048x12288, .f32⟩
  | 24 => ⟨S2048x12288, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_1 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_c_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_c_3 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_c_4 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_c_5 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_c_6 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S8x64_S8x1x64x1_0_2 : S8x64.BroadcastsInDim S8x1x64x1 (![0, 2] : Fin 2 → Fin S8x1x64x1.rank)
  bcast_S8x1x64x1_S8x3x64x4096_0_1_2_3 : S8x1x64x1.BroadcastsInDim S8x3x64x4096 (![0, 1, 2, 3] : Fin 4 → Fin S8x3x64x4096.rank)
  bcast_S_S2048x12288 : S_.BroadcastsInDim S2048x12288 (![] : Fin 0 → Fin S2048x12288.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  slices_S8x3x64x4096_S1x3x64x4096_0_0_0_0 : S8x3x64x4096.Slices ![0, 0, 0, 0] S1x3x64x4096
  shapeCasts_S1x3x64x4096_S3x64x4096 : S1x3x64x4096.ShapeCasts S3x64x4096
  transposes_S3x64x2048_S3x2048x64_0_2_1 : S3x64x2048.Transposes [0, 2, 1] S3x2048x64
  slices_S8x3x4096x64_S1x3x4096x64_0_0_0_0 : S8x3x4096x64.Slices ![0, 0, 0, 0] S1x3x4096x64
  shapeCasts_S1x3x4096x64_S3x4096x64 : S1x3x4096x64.ShapeCasts S3x4096x64
  transposes_S3x4096x2048_S2048x3x4096_2_0_1 : S3x4096x2048.Transposes [2, 0, 1] S2048x3x4096
  shapeCasts_S2048x3x4096_S2048x12288 : S2048x3x4096.ShapeCasts S2048x12288
  slices_S8x3x64x4096_S1x3x64x4096_1_0_0_0 : S8x3x64x4096.Slices ![1, 0, 0, 0] S1x3x64x4096
  slices_S8x3x4096x64_S1x3x4096x64_1_0_0_0 : S8x3x4096x64.Slices ![1, 0, 0, 0] S1x3x4096x64
  slices_S8x3x64x4096_S1x3x64x4096_2_0_0_0 : S8x3x64x4096.Slices ![2, 0, 0, 0] S1x3x64x4096
  slices_S8x3x4096x64_S1x3x4096x64_2_0_0_0 : S8x3x4096x64.Slices ![2, 0, 0, 0] S1x3x4096x64
  slices_S8x3x64x4096_S1x3x64x4096_3_0_0_0 : S8x3x64x4096.Slices ![3, 0, 0, 0] S1x3x64x4096
  slices_S8x3x4096x64_S1x3x4096x64_3_0_0_0 : S8x3x4096x64.Slices ![3, 0, 0, 0] S1x3x4096x64
  slices_S8x3x64x4096_S1x3x64x4096_4_0_0_0 : S8x3x64x4096.Slices ![4, 0, 0, 0] S1x3x64x4096
  slices_S8x3x4096x64_S1x3x4096x64_4_0_0_0 : S8x3x4096x64.Slices ![4, 0, 0, 0] S1x3x4096x64
  slices_S8x3x64x4096_S1x3x64x4096_5_0_0_0 : S8x3x64x4096.Slices ![5, 0, 0, 0] S1x3x64x4096
  slices_S8x3x4096x64_S1x3x4096x64_5_0_0_0 : S8x3x4096x64.Slices ![5, 0, 0, 0] S1x3x4096x64
  slices_S8x3x64x4096_S1x3x64x4096_6_0_0_0 : S8x3x64x4096.Slices ![6, 0, 0, 0] S1x3x64x4096
  slices_S8x3x4096x64_S1x3x4096x64_6_0_0_0 : S8x3x4096x64.Slices ![6, 0, 0, 0] S1x3x4096x64
  slices_S8x3x64x4096_S1x3x64x4096_7_0_0_0 : S8x3x64x4096.Slices ![7, 0, 0, 0] S1x3x64x4096
  slices_S8x3x4096x64_S1x3x4096x64_7_0_0_0 : S8x3x4096x64.Slices ![7, 0, 0, 0] S1x3x4096x64
  dot_S3x64x4096_S2048x4096_S3x64x2048_2_1_01_0_n_n_wf : DotDims.WF S3x64x4096 S2048x4096 S3x64x2048 [2] [1] [0, 1] [0] [] []
  dot_S3x4096x64_S3x2048x64_S3x4096x2048_2_2_1_1_0_0_wf : DotDims.WF S3x4096x64 S3x2048x64 S3x4096x2048 [2] [2] [1] [1] [0] [0]

variable [Facts₀]

def dot_S3x64x4096_S2048x4096_S3x64x2048_2_1_01_0_n_n : DotDims S3x64x4096 S2048x4096 S3x64x2048 where
  lhsContracting := [2]
  rhsContracting := [1]
  lhsNonContracting := [0, 1]
  rhsNonContracting := [0]
  lhsBatch := []
  rhsBatch := []
  wf := dot_S3x64x4096_S2048x4096_S3x64x2048_2_1_01_0_n_n_wf
def dot_S3x4096x64_S3x2048x64_S3x4096x2048_2_2_1_1_0_0 : DotDims S3x4096x64 S3x2048x64 S3x4096x2048 where
  lhsContracting := [2]
  rhsContracting := [2]
  lhsNonContracting := [1]
  rhsNonContracting := [1]
  lhsBatch := [0]
  rhsBatch := [0]
  wf := dot_S3x4096x64_S3x2048x64_S3x4096x2048_2_2_1_1_0_0_wf

class Facts : Prop extends Facts₀ where

variable [Facts]
-- ==== Proof.Pieces.lean ====
/-
  What one run of the kernel body leaves behind, as values.

  The body runs at a grid point (token tile, module). At the tile's first module it stores into the scratch the
  product of the token tile with the whole flattened first-stage weight, and at every module it stores into the
  output tile the masked, module-sliced scratch contracted with the module's second-stage weight. Each of these
  is one covering store, so the buffer's contents afterwards are that store's payload.
-/
import proofs.«145626_j84129819394361_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- Case "first module of a token tile": the scratch ends holding the stage-one product of the token tile with
    the whole flattened first-stage weight. -/
theorem sout_A (c : Dev nD) (i : grid0.Coords) (arg2 : Memref sig .tc .vmem S256x4096 .bf16) (harg2 : arg2.IsWhole) (arg3 : Memref sig .tc .vmem S256x1 .i32) (harg3 : arg3.IsWhole) (arg4 : Memref sig .tc .vmem S1536x4096 .bf16) (harg4 : arg4.IsWhole) (arg5 : Memref sig .tc .vmem S3x4096x512 .bf16) (harg5 : arg5.IsWhole) (arg6 : Memref sig .tc .vmem S256x4096 .f32) (harg6 : arg6.IsWhole) (arg7 : Memref sig .tc .vmem S256x1536 .f32) (harg7 : arg7.IsWhole) (hc0 : cond0_0 i)
    (x0 : Vec F S256x4096 .bf16) (x1 : Vec F S256x1 .i32) (x2 : Vec F S1536x4096 .bf16) (x3 : Vec F S3x4096x512 .bf16) :
    sout0_A_0 c i arg2 harg2 arg3 harg3 arg4 harg4 arg5 harg5 arg6 harg6 arg7 harg7 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg4.read_unread, View.ld_unit_zero (S := S256x4096) hz2,
    View.ld_unit_zero (S := S1536x4096) hz2]

/-- What the body stores into the output tile, from the scratch contents `xs` it reads: the module's 512 columns
    of `xs`, masked by the tokens' slots, contracted with the module's second-stage weight. -/
def bodyOut (i : grid0.Coords) (x1 : Vec F S256x1 .i32) (x3 : Vec F S3x4096x512 .bf16) (xs : Vec F S256x1536 .f32) : Vec F S256x4096 .f32 :=
  k0_pay1 (k0_pay3 (View.ld xs (Rect.unit (s := S256x1536) (k0_off1 i) S256x512.size (k0_off1_inb i))) x1) (View.ld x3 (Rect.unit (s := S3x4096x512) (k0_off2 i) S1x4096x512.size (k0_off2_inb i)))

/-- At a tile's first module the body reads back the scratch it has just stored. -/
theorem out_A (c : Dev nD) (i : grid0.Coords) (arg2 : Memref sig .tc .vmem S256x4096 .bf16) (harg2 : arg2.IsWhole) (arg3 : Memref sig .tc .vmem S256x1 .i32) (harg3 : arg3.IsWhole) (arg4 : Memref sig .tc .vmem S1536x4096 .bf16) (harg4 : arg4.IsWhole) (arg5 : Memref sig .tc .vmem S3x4096x512 .bf16) (harg5 : arg5.IsWhole) (arg6 : Memref sig .tc .vmem S256x4096 .f32) (harg6 : arg6.IsWhole) (arg7 : Memref sig .tc .vmem S256x1536 .f32) (harg7 : arg7.IsWhole) (hc0 : cond0_0 i)
    (x0 : Vec F S256x4096 .bf16) (x1 : Vec F S256x1 .i32) (x2 : Vec F S1536x4096 .bf16) (x3 : Vec F S3x4096x512 .bf16) :
    out0_A_4 c i arg2 harg2 arg3 harg3 arg4 harg4 arg5 harg5 arg6 harg6 arg7 harg7 hc0 x0 x1 x2 x3 = bodyOut i x1 x3 (k0_pay2 x0 x2) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld]
  rw [View.read_writes_eq_canon _ _ _ (fun y => ⟨_, List.mem_singleton_self _, View.mem_set_unit_zero hz2 inb_S256x1536_S256x1536_0_0 y⟩)]
  rw [View.canon_unit_zero hz2]
  simp only [harg2.read_unread, harg3.read_unread, harg4.read_unread, harg5.read_unread,
    View.ld_unit_zero (S := S256x4096) hz2, View.ld_unit_zero (S := S1536x4096) hz2, View.ld_unit_zero (S := S256x1) hz2]
  rfl

/-- At the other modules the body reads the scratch the tile's first module left. -/
theorem out_B (c : Dev nD) (i : grid0.Coords) (arg2 : Memref sig .tc .vmem S256x4096 .bf16) (harg2 : arg2.IsWhole) (arg3 : Memref sig .tc .vmem S256x1 .i32) (harg3 : arg3.IsWhole) (arg4 : Memref sig .tc .vmem S1536x4096 .bf16) (harg4 : arg4.IsWhole) (arg5 : Memref sig .tc .vmem S3x4096x512 .bf16) (harg5 : arg5.IsWhole) (arg6 : Memref sig .tc .vmem S256x4096 .f32) (harg6 : arg6.IsWhole) (arg7 : Memref sig .tc .vmem S256x1536 .f32) (harg7 : arg7.IsWhole) (hc0 : ¬cond0_0 i)
    (x0 : Vec F S256x4096 .bf16) (x1 : Vec F S256x1 .i32) (x2 : Vec F S1536x4096 .bf16) (x3 : Vec F S3x4096x512 .bf16) (xs0 : Vec F S256x1536 .f32) :
    out0_B_4 c i arg2 harg2 arg3 harg3 arg4 harg4 arg5 harg5 arg6 harg6 arg7 harg7 hc0 x0 x1 x2 x3 xs0 = bodyOut i x1 x3 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz2]
  simp only [View.readAt_eq_ld, harg3.read_unread, harg5.read_unread, harg7.read_unread,
    View.ld_unit_zero (S := S256x1) hz2]
  rfl

end Cert.KernelIdeal.Pieces
end
-- ==== Proof.Spec.lean ====
/-
  The value both programs compute, as one function of the five argument arrays, over the extended reals.

  For token `b`, module `m`, output column `o`:
      out[b, m·4096 + o] = ∑ₛ ∑ᵣ B[s,m,o,r] · ∑ₕ (A[s,m,r,h] · rank(s,r)) · (X[b,h] · tok(b,s))
  where `rank(s,r)` is one when `r` is below slot `s`'s rank and zero otherwise, and `tok(b,s)` is one
  when token `b` belongs to slot `s` and zero otherwise.

  The masked-intermediate arrangement — the weight `tok(b,s)` applied to the finished inner sum over `h`,
  and the pair (s, r) flattened into one index p = 64·s + r below 512 — equals it: a weight that is zero
  or one may be moved between a finite sum and its terms, and a sum over 512 is a sum over 8 × 64.
  Neither step needs the entries to be finite.
-/
import Mathlib
import Idealize.ShloMosaic.PureOps.Ideal
import Idealize.ShloMosaic.PureOps.Ideal.Laws
import Idealize.ShloMosaic.Lib.ValueIdx

noncomputable section

namespace Cert.LoraSpec

open Idealize.ShloMosaic Idealize.ShloMosaic.ValueIdx

abbrev SX : Shape := ⟨2, ![2048, 4096]⟩
abbrev SA : Shape := ⟨4, ![8, 3, 64, 4096]⟩
abbrev SB : Shape := ⟨4, ![8, 3, 4096, 64]⟩
abbrev SI : Shape := ⟨1, ![2048]⟩
abbrev SR : Shape := ⟨1, ![8]⟩
abbrev SO : Shape := ⟨2, ![2048, 12288]⟩

/-- A one-bit word read as a number is zero or one. -/
theorem bit_zero_or_one (c : BitVec 1) : (((c.toNat : ℝ) : EReal) = 0) ∨ (((c.toNat : ℝ) : EReal) = 1) := by
  have h : c = 0#1 ∨ c = 1#1 := by
    have : ∀ c : BitVec 1, c = 0#1 ∨ c = 1#1 := by decide
    exact this c
  rcases h with rfl | rfl
  · left; simp
  · right; simp

/-- A one-bit word widened without sign and then read signed is the word read unsigned. -/
theorem bit_widen_toInt (c : BitVec 1) : ((c.setWidth 32).toInt : ℝ) = (c.toNat : ℝ) := by
  have : ∀ c : BitVec 1, (c.setWidth 32).toInt = (c.toNat : ℤ) := by decide
  rw [this c]; simp

section
variable (X : SX.Idx → EReal) (A : SA.Idx → EReal) (B : SB.Idx → EReal)
  (ids : SI.Idx → BitVec 32) (ranks : SR.Idx → BitVec 32)

/-- One when rank index `r` is below slot `s`'s rank (compared as signed integers), zero otherwise. -/
def rankMask (s : Fin 8) (r : Fin 64) : EReal :=
  (((IntOp.cmpi .slt (BitVec.ofNat 32 r.val) (ranks (ix1 s))).toNat : ℝ) : EReal)

/-- One when token `b`'s slot id is `s`, zero otherwise. -/
def tokMask (b : Fin 2048) (s : Fin 8) : EReal :=
  (((IntOp.cmpi .eq (ids (ix1 b)) (BitVec.ofNat 32 s.val)).toNat : ℝ) : EReal)

theorem tokMask_zero_or_one (b : Fin 2048) (s : Fin 8) : tokMask ids b s = 0 ∨ tokMask ids b s = 1 :=
  bit_zero_or_one _

/-- The first-stage weight with the ranks beyond the slot's rank zeroed. -/
def aEff (s : Fin 8) (m : Fin 3) (r : Fin 64) (h : Fin 4096) : EReal :=
  A (ix4 s m r h) * rankMask ranks s r

/-- Slot `s`'s contribution to out[b, m·4096 + o], in the order the slot-by-slot program computes it. -/
def slotTerm (b : Fin 2048) (m : Fin 3) (o : Fin 4096) (s : Fin 8) : EReal :=
  ∑ r : Fin 64, B (ix4 s m o r) * ∑ h : Fin 4096, aEff A ranks s m r h * (X (ix2 b h) * tokMask ids b s)

/-- The result at token `b`, module `m`, column `o`. -/
def outAt (b : Fin 2048) (m : Fin 3) (o : Fin 4096) : EReal :=
  ∑ s : Fin 8, slotTerm X A B ids ranks b m o s

/-- The result array. -/
def G : SO.Idx → EReal := fun i =>
  outAt X A B ids ranks (i 0)
    ⟨(i 1).val / 4096, by have h : (i 1).val < 12288 := (i 1).isLt; omega⟩
    ⟨(i 1).val % 4096, Nat.mod_lt _ (by norm_num)⟩

end

/-- A weight that is zero or one, applied to a finite sum of products, may be moved onto the first factor of each
    product (and the factors swapped). -/
theorem sum_mul_weight {ι : Type*} (s : Finset ι) (x a : ι → EReal) (μ : EReal) (hμ : μ = 0 ∨ μ = 1) :
    (∑ h ∈ s, x h * a h) * μ = ∑ h ∈ s, a h * (x h * μ) := by
  rcases hμ with rfl | rfl
  · simp
  · simp [mul_comm]

/-- Slot index and rank index of a flattened position below 512. -/
abbrev slotOf (p : Fin 512) : Fin 8 := ⟨p.val / 64, by have := p.isLt; omega⟩
abbrev rankOf (p : Fin 512) : Fin 64 := ⟨p.val % 64, Nat.mod_lt _ (by norm_num)⟩

/-- A sum over the flattened positions is the double sum over slots and ranks. -/
theorem sum_flat {M : Type*} [AddCommMonoid M] (f : Fin 8 → Fin 64 → M) :
    ∑ p : Fin 512, f (slotOf p) (rankOf p) = ∑ s : Fin 8, ∑ r : Fin 64, f s r := by
  rw [← Finset.sum_product' (f := f), Finset.univ_product_univ]
  exact Fintype.sum_equiv (finProdFinEquiv (m := 8) (n := 64)).symm _ _ (fun p => rfl)

/-- The masked-intermediate arrangement: the stage-one sums over `h` for every flattened position, each weighted
    by the token's membership of that position's slot, contracted with the second-stage weights. -/
theorem flat_eq_outAt (X : SX.Idx → EReal) (A : SA.Idx → EReal) (B : SB.Idx → EReal)
    (ids : SI.Idx → BitVec 32) (ranks : SR.Idx → BitVec 32) (b : Fin 2048) (m : Fin 3) (o : Fin 4096) :
    ∑ p : Fin 512, ((∑ h : Fin 4096, X (ix2 b h) * aEff A ranks (slotOf p) m (rankOf p) h) * tokMask ids b (slotOf p))
        * B (ix4 (slotOf p) m o (rankOf p))
      = outAt X A B ids ranks b m o := by
  rw [sum_flat (fun s r => ((∑ h : Fin 4096, X (ix2 b h) * aEff A ranks s m r h) * tokMask ids b s) * B (ix4 s m o r))]
  unfold outAt slotTerm
  refine Finset.sum_congr rfl fun s _ => Finset.sum_congr rfl fun r _ => ?_
  rw [sum_mul_weight _ _ _ _ (tokMask_zero_or_one ids b s), mul_comm]

end Cert.LoraSpec

end
-- ==== Proof.Payloads.lean ====
/-
  The body's three computed values read at an index, over the extended reals.

  Stage one: entry (r, q) of the scratch is the sum over the hidden axis of token row r times flattened weight row q.
  Stage two: entry (r, o) of the output tile is the sum over the 512 flattened positions p of the masked scratch
  entry (r, p) times the module's weight entry (o, p).
  The mask at (r, p) is one when token r's slot id equals p / 64 — the flattened position's slot — and zero otherwise;
  the body computes p / 64 by a rounding-toward-zero division with a correction that never fires for 0 ≤ p < 512.
-/
import proofs.«145626_j84129819394361_2_alg».proof.Proof.Gen.KernelIdeal.Skeleton
import proofs.«145626_j84129819394361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

theorem lhs_st1_0 (i : S256x1536.Idx) (q : dot_S256x4096_S1536x4096_S256x1536_1_1_0_0_n_n.contr.Idx) : (dot_S256x4096_S1536x4096_S256x1536_1_1_0_0_n_n.lhsIdx i q 0).val = (i 0).val := by
  unfold DotDims.lhsIdx
  rw [dif_neg (show ¬(0 : Fin S256x4096.rank) ∈ dot_S256x4096_S1536x4096_S256x1536_1_1_0_0_n_n.lhsBatch by decide), dif_pos (show (0 : Fin S256x4096.rank) ∈ dot_S256x4096_S1536x4096_S256x1536_1_1_0_0_n_n.lhsNonContracting by decide)]
  rfl
theorem lhs_st1_1 (i : S256x1536.Idx) (q : dot_S256x4096_S1536x4096_S256x1536_1_1_0_0_n_n.contr.Idx) : (dot_S256x4096_S1536x4096_S256x1536_1_1_0_0_n_n.lhsIdx i q 1).val = (q ⟨0, by decide⟩).val :=
  dot_S256x4096_S1536x4096_S256x1536_1_1_0_0_n_n.lhsIdx_val_of_single rfl i q
theorem rhs_st1_0 (i : S256x1536.Idx) (q : dot_S256x4096_S1536x4096_S256x1536_1_1_0_0_n_n.contr.Idx) : (dot_S256x4096_S1536x4096_S256x1536_1_1_0_0_n_n.rhsIdx i q 0).val = (i 1).val := by
  unfold DotDims.rhsIdx
  rw [dif_neg (show ¬(0 : Fin S1536x4096.rank) ∈ dot_S256x4096_S1536x4096_S256x1536_1_1_0_0_n_n.rhsBatch by decide), dif_pos (show (0 : Fin S1536x4096.rank) ∈ dot_S256x4096_S1536x4096_S256x1536_1_1_0_0_n_n.rhsNonContracting by decide)]
  rfl
theorem rhs_st1_1 (i : S256x1536.Idx) (q : dot_S256x4096_S1536x4096_S256x1536_1_1_0_0_n_n.contr.Idx) : (dot_S256x4096_S1536x4096_S256x1536_1_1_0_0_n_n.rhsIdx i q 1).val = (q ⟨0, by decide⟩).val :=
  dot_S256x4096_S1536x4096_S256x1536_1_1_0_0_n_n.rhsIdx_val_of_single rfl i q

theorem lhs_st2_0 (i : S256x4096.Idx) (q : dot_S256x512_S4096x512_S256x4096_1_1_0_0_n_n.contr.Idx) : (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_st2_1 (i : S256x4096.Idx) (q : dot_S256x512_S4096x512_S256x4096_1_1_0_0_n_n.contr.Idx) : (dot_S256x512_S4096x512_S256x4096_1_1_0_0_n_n.lhsIdx i q 1).val = (q ⟨0, by decide⟩).val :=
  dot_S256x512_S4096x512_S256x4096_1_1_0_0_n_n.lhsIdx_val_of_single rfl i q
theorem rhs_st2_0 (i : S256x4096.Idx) (q : dot_S256x512_S4096x512_S256x4096_1_1_0_0_n_n.contr.Idx) : (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_st2_1 (i : S256x4096.Idx) (q : dot_S256x512_S4096x512_S256x4096_1_1_0_0_n_n.contr.Idx) : (dot_S256x512_S4096x512_S256x4096_1_1_0_0_n_n.rhsIdx i q 1).val = (q ⟨0, by decide⟩).val :=
  dot_S256x512_S4096x512_S256x4096_1_1_0_0_n_n.rhsIdx_val_of_single rfl i q

/-- Stage one at an index: a plain contraction over the hidden axis. -/
theorem pay2_apply (x0 : Vec Ideal S256x4096 .bf16) (x2 : Vec Ideal S1536x4096 .bf16) (r : Fin 256) (q : Fin 1536) :
    k0_pay2 (F := Ideal) x0 x2 (ix2 r q) = ∑ h : Fin 4096, x0 (ix2 r h) * x2 (ix2 q h) := by
  unfold k0_pay2
  simp only [shapeCast_self, matmul]
  rw [Ideal.matmul_constant_zero_apply, ← Equiv.sum_comp (contrEquiv1 dot_S256x4096_S1536x4096_S256x1536_1_1_0_0_n_n 4096 rfl rfl).symm]
  refine Finset.sum_congr rfl fun k _ => ?_
  have hk := contrEquiv1_symm_val dot_S256x4096_S1536x4096_S256x1536_1_1_0_0_n_n 4096 rfl rfl k
  have el : dot_S256x4096_S1536x4096_S256x1536_1_1_0_0_n_n.lhsIdx (ix2 r q) ((contrEquiv1 dot_S256x4096_S1536x4096_S256x1536_1_1_0_0_n_n 4096 rfl rfl).symm k) = ix2 r k := funext fun a => Fin.ext (by
    match a with
    | ⟨0, _⟩ => exact lhs_st1_0 _ _
    | ⟨1, _⟩ => exact (lhs_st1_1 _ _).trans hk)
  have er : dot_S256x4096_S1536x4096_S256x1536_1_1_0_0_n_n.rhsIdx (ix2 r q) ((contrEquiv1 dot_S256x4096_S1536x4096_S256x1536_1_1_0_0_n_n 4096 rfl rfl).symm k) = ix2 q k := funext fun a => Fin.ext (by
    match a with
    | ⟨0, _⟩ => exact rhs_st1_0 _ _
    | ⟨1, _⟩ => exact (rhs_st1_1 _ _).trans hk)
  rw [el, er]

/-- Stage two at an index: a plain contraction over the 512 flattened positions. -/
theorem pay1_apply (v41 : FVec Ideal S256x512 .bf16) (v43 : Vec Ideal S1x4096x512 .bf16) (r : Fin 256) (o : Fin 4096) :
    k0_pay1 (F := Ideal) v41 v43 (ix2 r o) = ∑ p : Fin 512, v41 (ix2 r p) * v43 (ix3 0 o p) := by
  unfold k0_pay1
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 r o) ((contrEquiv1 dot_S256x512_S4096x512_S256x4096_1_1_0_0_n_n 512 rfl rfl).symm k) = ix2 r k := funext fun a => Fin.ext (by
    match a with
    | ⟨0, _⟩ => exact lhs_st2_0 _ _
    | ⟨1, _⟩ => exact (lhs_st2_1 _ _).trans hk)
  have er : dot_S256x512_S4096x512_S256x4096_1_1_0_0_n_n.rhsIdx (ix2 r o) ((contrEquiv1 dot_S256x512_S4096x512_S256x4096_1_1_0_0_n_n 512 rfl rfl).symm k) = ix2 o k := funext fun a => Fin.ext (by
    match a with
    | ⟨0, _⟩ => exact rhs_st2_0 _ _
    | ⟨1, _⟩ => exact (rhs_st2_1 _ _).trans hk)
  rw [el, er]
  congr 1
  exact shapeCast_1ab_ab_apply v43 shapeCasts_S1x4096x512_S4096x512 o k

/-- A column broadcast along its rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The quotient of a word by 64 rounded toward minus infinity, as the body computes it: the quotient toward
    zero, less one when the dividend's sign differs from the divisor's and the remainder is not zero. -/
def floorDiv64 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- For a position below 512 it is the natural-number quotient. -/
theorem floorDiv64_eq : ∀ p : Fin 512, floorDiv64 (BitVec.ofNat 32 p.val) = BitVec.ofNat 32 (p.val / 64) := by
  decide +kernel

/-- The slot of every flattened position 0 ≤ p < 512, as a row of words, computed the body's way. -/
def slotWords : IVec S1x512 32 :=
  select
    (andi
      (cmpi .ne
        (subi (extui 32 (cmpi .sgt (iota .tc S1x512 32 [1] iota_S1x512_d1_w32) (broadcast S1x512 0#32)) natLt_1_32)
          (extui 32 (cmpi .slt (iota .tc S1x512 32 [1] iota_S1x512_d1_w32) (broadcast S1x512 0#32)) natLt_1_32))
        (broadcast S1x512 (Scalar.subi (Scalar.extui (Scalar.cmpi .sgt 64#32 0#32)) (Scalar.extui (Scalar.cmpi .slt 64#32 0#32)))))
      (cmpi .ne (remsi (iota .tc S1x512 32 [1] iota_S1x512_d1_w32) (broadcast S1x512 64#32)) (broadcast S1x512 0#32)))
    (subi (divsi (iota .tc S1x512 32 [1] iota_S1x512_d1_w32) (broadcast S1x512 64#32)) (broadcast S1x512 1#32))
    (divsi (iota .tc S1x512 32 [1] iota_S1x512_d1_w32) (broadcast S1x512 64#32))

/-- Position p's word is p / 64. -/
theorem slotWords_apply (p : Fin 512) : slotWords (ix2 (0 : Fin 1) p) = BitVec.ofNat 32 (p.val / 64) := by
  show floorDiv64 (BitVec.ofNat 32 (0 * 512 + p.val)) = _
  rw [Nat.zero_mul, Nat.zero_add]
  exact floorDiv64_eq p

/-- The masked scratch at an index: the scratch entry times one or zero according to whether the token's slot id
    is the flattened position's slot. -/
theorem pay3_apply (v6 : Vec Ideal S256x512 .f32) (v32 : Vec Ideal S256x1 .i32) (r : Fin 256) (p : Fin 512) :
    k0_pay3 (F := Ideal) v6 v32 (ix2 r p)
      = v6 (ix2 r p) * (((IntOp.cmpi .eq (v32 (ix2 r (0 : Fin 1))) (BitVec.ofNat 32 (p.val / 64))).toNat : ℝ) : EReal) := by
  unfold k0_pay3
  show v6 (ix2 r p) * FloatOps.sitofp (F := Ideal) .f32 (BitVec.setWidth 32 (IntOp.cmpi .eq
      (broadcastTo S256x512 (shapeCast S256x1 v32 shapeCasts_S256x1_S256x1) broadcasts_S256x1_S256x512 (ix2 r p))
      (broadcastTo S256x512 slotWords broadcasts_S1x512_S256x512 (ix2 r p)))) = _
  rw [shapeCast_self, broadcastTo_a1_ab_apply, broadcastTo_1b_ab_apply, slotWords_apply]
  show v6 (ix2 r p) * (((BitVec.setWidth 32 (IntOp.cmpi .eq (v32 (ix2 r (0 : Fin 1))) (BitVec.ofNat 32 (p.val / 64)))).toInt : ℝ) : EReal) = _
  rw [Cert.LoraSpec.bit_widen_toInt]

end Cert.KernelIdeal.Payloads

end
-- ==== Proof.KernelValue.lean ====
/-
  The kernel's result array, as one function of the arrays its region is launched on.

  The grid runs over (token tile, module), module innermost. By induction on the point, the scratch after every point
  holds the stage-one table of the point's tile (stored at the tile's first module, untouched at the other two); so
  what each point writes back is the body's stage-two result from that table, which at an index is the sum over the
  512 flattened positions of the masked table entry times the second-stage weight. Block (tile, module) of the
  result array is what point (tile, module) wrote, and the blocks cover the array.
-/
import proofs.«145626_j84129819394361_2_alg».proof.Proof.Gen.KernelIdeal.Value
import proofs.«145626_j84129819394361_2_alg».proof.Proof.Pieces
import proofs.«145626_j84129819394361_2_alg».proof.Proof.Payloads
import proofs.«145626_j84129819394361_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.KernelIdeal.Pieces Cert.KernelIdeal.Payloads
open Idealize.ShloMosaic.Pipeline (Dat)

variable (m : (ℓ : Loc nD τ sig) → Buf (Elt Ideal) ℓ) (ρ : Dev nD → PrngReg)

theorem hN : cfg0.N = 24 := N_0

/-- The token tile and the module of a grid point: the grid runs over tiles, and within a tile over modules. -/
def tileOf (t : Fin cfg0.N) : Fin 8 := ⟨t.val / 3, by have := t.isLt; have := hN; omega⟩
def modOf (t : Fin cfg0.N) : Fin 3 := ⟨t.val % 3, Nat.mod_lt _ (by norm_num)⟩

/-- Row r of tile bi is token 256·bi + r; position p of module mo is flattened column 512·mo + p; column o of module
    mo is output column 4096·mo + o. -/
def rowOf (bi : Fin 8) (r : Fin 256) : Fin 2048 := ⟨256 * bi.val + r.val, by have := bi.isLt; have := r.isLt; omega⟩
def colOf (mo : Fin 3) (p : Fin 512) : Fin 1536 := ⟨512 * mo.val + p.val, by have := mo.isLt; have := p.isLt; omega⟩
def ocolOf (mo : Fin 3) (o : Fin 4096) : Fin 12288 := ⟨4096 * mo.val + o.val, by have := mo.isLt; have := o.isLt; omega⟩

/-- The windows' block indices, decided over the grid. -/
theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = t.val / 3 ∧ win0_1.index t 1 = 0 :=
  (by decide +kernel : ∀ t : Fin grid0.N, win0_1.index t 0 = t.val / 3 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = t.val / 3 ∧ win0_4.index t 1 = t.val % 3 :=
  (by decide +kernel : ∀ t : Fin grid0.N, win0_4.index t 0 = t.val / 3 ∧ win0_4.index t 1 = t.val % 3)
/-- The body's computed offsets, decided over the grid. -/
theorem off1 : ∀ t : Fin cfg0.N, k0_off1 (grid0.coords t) 0 = 0 ∧ k0_off1 (grid0.coords t) 1 = 512 * (t.val % 3) :=
  (by decide +kernel : ∀ t : Fin grid0.N, k0_off1 (grid0.coords t) 0 = 0 ∧ k0_off1 (grid0.coords t) 1 = 512 * (t.val % 3))
theorem off2 : ∀ t : Fin cfg0.N, k0_off2 (grid0.coords t) 0 = t.val % 3 ∧ k0_off2 (grid0.coords t) 1 = 0 ∧ k0_off2 (grid0.coords t) 2 = 0 :=
  (by decide +kernel : ∀ t : Fin grid0.N, k0_off2 (grid0.coords t) 0 = t.val % 3 ∧ k0_off2 (grid0.coords t) 1 = 0 ∧ k0_off2 (grid0.coords t) 2 = 0)

/-- The four arrays the region is launched on, as the region finds them. -/
abbrev tokArr (c : Dev nD) : S2048x4096.Idx → EReal := V m c main_v16
abbrev idArr (c : Dev nD) : S2048x1.Idx → BitVec 32 := V m c main_v17
abbrev aArr (c : Dev nD) : S1536x4096.Idx → EReal := V m c main_v12
abbrev bArr (c : Dev nD) : S3x4096x512.Idx → EReal := V m c main_v15

/-- The token tile's block of the (format-changed) token array. -/
theorem iblk0_apply (c : Dev nD) (t : Fin cfg0.N) (r : Fin 256) (h : Fin 4096) :
    (iblk m c 0 t : Vec Ideal S256x4096 .bf16) (ix2 r h) = tokArr m c (ix2 (rowOf (tileOf t) r) h) := by
  have hi := idx0 t
  unfold iblk
  rw [View.read_apply]
  show V m c main_v16 _ = V m c main_v16 _
  congr 1
  funext a
  apply Fin.ext
  match a with
  | ⟨0, _⟩ => show win0_0.index t 0 * 256 + 1 * r.val = 256 * (t.val / 3) + r.val; rw [hi.1]; omega
  | ⟨1, _⟩ => show win0_0.index t 1 * 4096 + 1 * h.val = h.val; rw [hi.2]; omega

/-- The token tile's block of the slot-id column. -/
theorem iblk1_apply (c : Dev nD) (t : Fin cfg0.N) (r : Fin 256) :
    (iblk m c 1 t : Vec Ideal S256x1 .i32) (ix2 r (0 : Fin 1)) = idArr m c (ix2 (rowOf (tileOf t) r) (0 : Fin 1)) := by
  have hi := idx1 t
  unfold iblk
  rw [View.read_apply]
  show V m c main_v17 _ = V m c main_v17 _
  congr 1
  funext a
  apply Fin.ext
  match a with
  | ⟨0, _⟩ => show win0_1.index t 0 * 256 + 1 * r.val = 256 * (t.val / 3) + r.val; rw [hi.1]; omega
  | ⟨1, _⟩ => show win0_1.index t 1 * 1 + 1 * 0 = 0; rw [hi.2]

/-- The flattened first-stage weight is one block. -/
theorem iblk2_apply (c : Dev nD) (t : Fin cfg0.N) (q : Fin 1536) (h : Fin 4096) :
    (iblk m c 2 t : Vec Ideal S1536x4096 .bf16) (ix2 q h) = aArr m c (ix2 q h) := by
  have hi := idx2 t
  unfold iblk
  rw [View.read_apply]
  show V m c main_v12 _ = V m c main_v12 _
  congr 1
  funext a
  apply Fin.ext
  match a with
  | ⟨0, _⟩ => show win0_2.index t 0 * 1536 + 1 * q.val = q.val; rw [hi.1]; omega
  | ⟨1, _⟩ => show win0_2.index t 1 * 4096 + 1 * h.val = h.val; rw [hi.2]; omega

/-- The second-stage weight is one block. -/
theorem iblk3_apply (c : Dev nD) (t : Fin cfg0.N) (mo : Fin 3) (o : Fin 4096) (p : Fin 512) :
    (iblk m c 3 t : Vec Ideal S3x4096x512 .bf16) (ix3 mo o p) = bArr m c (ix3 mo o p) := by
  have hi := idx3 t
  unfold iblk
  rw [View.read_apply]
  show V m c main_v15 _ = V m c main_v15 _
  congr 1
  funext a
  apply Fin.ext
  match a with
  | ⟨0, _⟩ => show win0_3.index t 0 * 3 + 1 * mo.val = mo.val; rw [hi.1]; omega
  | ⟨1, _⟩ => show win0_3.index t 1 * 4096 + 1 * o.val = o.val; rw [hi.2.1]; omega
  | ⟨2, _⟩ => show win0_3.index t 2 * 512 + 1 * p.val = p.val; rw [hi.2.2]; omega

/-- The stage-one table of token tile `bi`: entry (r, q) is the sum over the hidden axis of token 256·bi + r times
    flattened weight row q. -/
def scr (c : Dev nD) (bi : Fin 8) : Vec Ideal S256x1536 .f32 := fun j =>
  ∑ h : Fin 4096, tokArr m c (ix2 (rowOf bi ⟨(j 0).val, (j 0).isLt⟩) h) * aArr m c (ix2 ⟨(j 1).val, (j 1).isLt⟩ h)

theorem scr_apply (c : Dev nD) (bi : Fin 8) (r : Fin 256) (q : Fin 1536) :
    scr m c bi (ix2 r q) = ∑ h : Fin 4096, tokArr m c (ix2 (rowOf bi r) h) * aArr m c (ix2 q h) := rfl

/-- Stage one at any point of a tile computes the tile's table. -/
theorem stage1_eq (c : Dev nD) (t : Fin cfg0.N) :
    k0_pay2 (F := Ideal) (iblk m c 0 t) (iblk m c 2 t) = scr m c (tileOf t) := by
  funext j
  obtain ⟨r, q, rfl⟩ : ∃ (r : Fin 256) (q : Fin 1536), j = ix2 r q := ⟨j 0, j 1, eq_ix2 j⟩
  refine (pay2_apply (iblk m c 0 t) (iblk m c 2 t) r q).trans ?_
  refine Eq.trans ?_ (scr_apply m c (tileOf t) r q).symm
  refine Finset.sum_congr rfl fun h _ => ?_
  exact congrArg₂ (· * ·) (iblk0_apply m c t r h) (iblk2_apply m c t q h)

/-- The scratch after every point holds the table of the point's tile: stored at the tile's first module, kept at
    the other two. -/
theorem scratch_eq (c : Dev nD) : ∀ (n : ℕ) (h : n < cfg0.N), (outsAt0 m c n h).2 = scr m c (tileOf ⟨n, h⟩)
  | 0, h => by
    rw [outsAt0_A m c ⟨0, h⟩ rfl]
    dsimp only
    exact (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)).trans (stage1_eq m c ⟨0, h⟩)
  | n + 1, h => by
    by_cases h0 : (n + 1) % 3 = 0
    · rw [outsAt0_A m c ⟨n + 1, h⟩ h0]
      dsimp only
      exact (sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans (stage1_eq m c ⟨n + 1, h⟩)
    · rw [outsAt0_B m c ⟨n + 1, h⟩ h0]
      dsimp only
      unfold sout0_B_0
      show (outsAt0 m c n _).2 = _
      rw [scratch_eq c n]
      congr 1
      apply Fin.ext
      show n / 3 = (n + 1) / 3
      omega

/-- What each point leaves in the output tile: the body's result from the tile's table. -/
theorem out_eq (c : Dev nD) (t : Fin cfg0.N) :
    (outsAt0 m c t.val t.isLt).1 = bodyOut (F := Ideal) (grid0.coords t) (iblk m c 1 t) (iblk m c 3 t) (scr m c (tileOf t)) := by
  by_cases h0 : t.val % 3 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    exact congrArg (bodyOut (F := Ideal) (grid0.coords t) (iblk m c 1 t) (iblk m c 3 t)) (stage1_eq m c t)
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _).trans ?_
    refine congrArg (bodyOut (F := Ideal) (grid0.coords t) (iblk m c 1 t) (iblk m c 3 t)) ?_
    rw [scratch_eq m c (t.val - 1)]
    congr 1
    apply Fin.ext
    show (t.val - 1) / 3 = t.val / 3
    omega

/-- The body's result at an index: the sum over the 512 flattened positions of the module's table entry, masked by
    the token's slot, times the module's second-stage weight. -/
theorem bodyOut_apply (t : Fin cfg0.N) (x1 : Vec Ideal S256x1 .i32) (x3 : Vec Ideal S3x4096x512 .bf16)
    (xs : Vec Ideal S256x1536 .f32) (r : Fin 256) (o : Fin 4096) :
    bodyOut (F := Ideal) (grid0.coords t) x1 x3 xs (ix2 r o)
      = ∑ p : Fin 512, (xs (ix2 r (colOf (modOf t) p))
          * (((IntOp.cmpi .eq (x1 (ix2 r (0 : Fin 1))) (BitVec.ofNat 32 (p.val / 64))).toNat : ℝ) : EReal))
          * x3 (ix3 (modOf t) o p) := by
  unfold bodyOut
  refine (pay1_apply _ _ r o).trans ?_
  refine Finset.sum_congr rfl fun p _ => ?_
  rw [pay3_apply]
  have h1 := off1 t
  have h2 := off2 t
  refine congrArg₂ (· * ·) (congrArg₂ (· * ·) ?_ rfl) ?_
  · show xs _ = xs _
    congr 1
    funext a
    apply Fin.ext
    match a with
    | ⟨0, _⟩ => show k0_off1 (grid0.coords t) 0 + 1 * r.val = r.val; rw [h1.1]; omega
    | ⟨1, _⟩ => show k0_off1 (grid0.coords t) 1 + 1 * p.val = 512 * (t.val % 3) + p.val; rw [h1.2]; omega
  · show x3 _ = x3 _
    congr 1
    funext a
    apply Fin.ext
    match a with
    | ⟨0, _⟩ => show k0_off2 (grid0.coords t) 0 + 1 * 0 = t.val % 3; rw [h2.1]; omega
    | ⟨1, _⟩ => show k0_off2 (grid0.coords t) 1 + 1 * o.val = o.val; rw [h2.2.1]; omega
    | ⟨2, _⟩ => show k0_off2 (grid0.coords t) 2 + 1 * p.val = p.val; rw [h2.2.2]; omega

theorem bodyOut_apply' (t : Fin cfg0.N) (x1 : Vec Ideal S256x1 .i32) (x3 : Vec Ideal S3x4096x512 .bf16)
    (xs : Vec Ideal S256x1536 .f32) (j : S256x4096.Idx) :
    bodyOut (F := Ideal) (grid0.coords t) x1 x3 xs j
      = ∑ p : Fin 512, (xs (ix2 (j 0) (colOf (modOf t) p))
          * (((IntOp.cmpi .eq (x1 (ix2 (j 0) (0 : Fin 1))) (BitVec.ofNat 32 (p.val / 64))).toNat : ℝ) : EReal))
          * x3 (ix3 (modOf t) (j 1) p) := by
  exact (congrArg (bodyOut (F := Ideal) (grid0.coords t) x1 x3 xs) (eq_ix2 j)).trans (bodyOut_apply t x1 x3 xs (j 0) (j 1))

/-- The kernel's result at token b, module mo, column o, from the arrays the region is launched on. -/
def GkAt (c : Dev nD) (b : Fin 2048) (mo : Fin 3) (o : Fin 4096) : EReal :=
  ∑ p : Fin 512, ((∑ h : Fin 4096, tokArr m c (ix2 b h) * aArr m c (ix2 (colOf mo p) h))
      * (((IntOp.cmpi .eq (idArr m c (ix2 b (0 : Fin 1))) (BitVec.ofNat 32 (p.val / 64))).toNat : ℝ) : EReal))
    * bArr m c (ix3 mo o p)

theorem GkAt_congr (c : Dev nD) {b b' : Fin 2048} {mo mo' : Fin 3} {o o' : Fin 4096} (hb : b = b') (hm : mo = mo') (ho : o = o') :
    GkAt m c b mo o = GkAt m c b' mo' o' := by subst hb; subst hm; subst ho; rfl

/-- The kernel's result array. -/
def Gk (c : Dev nD) : S2048x12288.Idx → EReal := fun i =>
  GkAt m c ⟨(i 0).val, (i 0).isLt⟩
    ⟨(i 1).val / 4096, by have h : (i 1).val < 12288 := (i 1).isLt; omega⟩
    ⟨(i 1).val % 4096, Nat.mod_lt _ (by norm_num)⟩

/-- What point t writes back is block t of the kernel's result array. -/
theorem flushed_eq (c : Dev nD) (t : Fin cfg0.N) :
    (dats m 0 c).flushed 4 t = ((cfg0.win 4).blk t).view.read (Elt Ideal) (Gk m c) := by
  rw [Value.flushed4, out_eq]
  refine funext fun (j : S256x4096.Idx) => ?_
  show bodyOut (F := Ideal) (grid0.coords t) (iblk m c 1 t) (iblk m c 3 t) (scr m c (tileOf t)) j
    = Gk m c (((cfg0.win 4).blk t).view.emb j)
  refine (bodyOut_apply' t (iblk m c 1 t) (iblk m c 3 t) (scr m c (tileOf t)) j).trans ?_
  have hi := idx4 t
  have hj0 : (j 0).val < 256 := (j 0).isLt
  have hj1 : (j 1).val < 4096 := (j 1).isLt
  have e0 : ((((cfg0.win 4).blk t).view.emb j) 0).val = 256 * (t.val / 3) + (j 0).val := by
    show win0_4.index t 0 * 256 + 1 * (j 0).val = _; rw [hi.1]; omega
  have e1 : ((((cfg0.win 4).blk t).view.emb j) 1).val = 4096 * (t.val % 3) + (j 1).val := by
    show win0_4.index t 1 * 4096 + 1 * (j 1).val = _; rw [hi.2]; omega
  have hG : Gk m c (((cfg0.win 4).blk t).view.emb j) = GkAt m c (rowOf (tileOf t) (j 0)) (modOf t) (j 1) := by
    unfold Gk
    refine GkAt_congr m c (Fin.ext ?_) (Fin.ext ?_) (Fin.ext ?_)
    · exact e0
    · show ((((cfg0.win 4).blk t).view.emb j) 1).val / 4096 = t.val % 3; rw [e1]; omega
    · show ((((cfg0.win 4).blk t).view.emb j) 1).val % 4096 = (j 1).val; rw [e1]; omega
  rw [hG]
  unfold GkAt
  refine Finset.sum_congr rfl fun p _ => ?_
  exact congrArg₂ (· * ·)
    (congrArg₂ (· * ·) (scr_apply m c (tileOf t) (j 0) (colOf (modOf t) p))
      (congrArg (fun w => (((IntOp.cmpi .eq w (BitVec.ofNat 32 (p.val / 64))).toNat : ℝ) : EReal)) (iblk1_apply m c t (j 0))))
    (iblk3_apply m c t (modOf t) (j 1) p)

/-- An index of the result array is in point t's block iff each coordinate is in the block's range on its axis. -/
theorem mem_blk (t : Fin cfg0.N) (i : S2048x12288.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v18).slice (win0_4.rect t)).set ↔ _
  rw [View.set_slice_whole, Rect.mem_set_unit]
  exact Iff.rfl

/-- Every index of the result array lies in the block of the point (its token tile, its module). -/
theorem cover (c : Dev nD) (i : S2048x12288.Idx) :
    ∃ t : Fin cfg0.N, (cfg0.win 4).flush t = true ∧ i ∈ ((cfg0.win 4).blk t).view.set := by
  have h0 : (i 0).val < 2048 := (i 0).isLt
  have h1 : (i 1).val < 12288 := (i 1).isLt
  have hlt : 3 * ((i 0).val / 256) + (i 1).val / 4096 < cfg0.N := by rw [hN]; omega
  refine ⟨⟨3 * ((i 0).val / 256) + (i 1).val / 4096, hlt⟩, flush0_4 _, ?_⟩
  rw [mem_blk]
  have hi := idx4 ⟨3 * ((i 0).val / 256) + (i 1).val / 4096, hlt⟩
  intro a
  match a with
  | ⟨0, _⟩ =>
    show win0_4.index ⟨3 * ((i 0).val / 256) + (i 1).val / 4096, hlt⟩ 0 * 256 ≤ (i 0).val
      ∧ (i 0).val < win0_4.index ⟨3 * ((i 0).val / 256) + (i 1).val / 4096, hlt⟩ 0 * 256 + 256
    rw [hi.1]
    show (3 * ((i 0).val / 256) + (i 1).val / 4096) / 3 * 256 ≤ (i 0).val ∧ (i 0).val < (3 * ((i 0).val / 256) + (i 1).val / 4096) / 3 * 256 + 256
    omega
  | ⟨1, _⟩ =>
    show win0_4.index ⟨3 * ((i 0).val / 256) + (i 1).val / 4096, hlt⟩ 1 * 4096 ≤ (i 1).val
      ∧ (i 1).val < win0_4.index ⟨3 * ((i 0).val / 256) + (i 1).val / 4096, hlt⟩ 1 * 4096 + 4096
    rw [hi.2]
    show (3 * ((i 0).val / 256) + (i 1).val / 4096) % 3 * 4096 ≤ (i 1).val ∧ (i 1).val < (3 * ((i 0).val / 256) + (i 1).val / 4096) % 3 * 4096 + 4096
    omega

/-- So the result array after the run is the kernel's function. -/
theorem final (c : Dev nD) : (dats m 0 c).arrAt 4 cfg0.N = Gk m c :=
  (dats m 0 c).arrAt_eq_of_cover 4 (Gk m c) (fun t _ => flushed_eq m c t) (cover c)

/-- The run, read: the result array at the kernel's function, the arguments unchanged. -/
theorem run : θ_run defs (onTc (τ := τ) (main (F := Ideal))) ⟨m, fun _ => 0, ρ⟩ fun r => ∀ c : Dev nD,
      r.2.mem ((c : Thread nD τ).loc main_v18) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.HostVals.lean ====
/-
  The four arrays the kernel's region is launched on, read at an index in terms of the program's arguments.

  The host code before the region: zeroes the first-stage weight beyond each slot's rank, moves the module axis in
  front and flattens (module, slot, rank) into one axis of 1536; moves the second-stage weight's module and output
  axes in front and flattens (slot, rank) into one axis of 512; changes the tokens' float format (the identity on
  extended reals); and views the slot ids as a column.
-/
import proofs.«145626_j84129819394361_2_alg».proof.Proof.Gen.KernelIdeal.Frame
import proofs.«145626_j84129819394361_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.HostVals

open Cert.KernelIdeal Cert.KernelIdeal.Gen Idealize.ShloMosaic Idealize.ShloMosaic.TcCoe Idealize.SL.Sem
open Idealize.ShloMosaic.ValueIdx Idealize.ShloMosaic.StableHlo Cert.LoraSpec

/-- The rank mask as the host computes it: compare a row of rank indices with a column of slot ranks. -/
def rankMaskArr (ranks : IVec S8 32) : FVec Ideal S8x64 .f32 :=
  uitofp .f32 (cmpi .slt
    (broadcastInDim S8x64 ![0, 1] bcast_S1x64_S8x64_0_1 (broadcastInDim S1x64 ![1] bcast_S64_S1x64_1 (iotaInDim S64 32 0)))
    (broadcastInDim S8x64 ![0, 1] bcast_S8x1_S8x64_0_1 (broadcastInDim S8x1 ![0] bcast_S8_S8x1_0 ranks)))

theorem rankMaskArr_apply (ranks : IVec S8 32) (s : Fin 8) (r : Fin 64) :
    rankMaskArr ranks (ix2 s r) = rankMask ranks s r := by
  unfold rankMaskArr rankMask
  show FloatOps.uitofp (F := Ideal) .f32 (IntOp.cmpi .slt
      (broadcastInDim S8x64 ![0, 1] bcast_S1x64_S8x64_0_1 (broadcastInDim S1x64 ![1] bcast_S64_S1x64_1 (iotaInDim S64 32 0)) (ix2 s r))
      (broadcastInDim S8x64 ![0, 1] bcast_S8x1_S8x64_0_1 (broadcastInDim S8x1 ![0] bcast_S8_S8x1_0 ranks) (ix2 s r))) = _
  rw [broadcastInDim_apply _ bcast_S1x64_S8x64_0_1 _ (ix2 s r) (ix2 (0 : Fin 1) r) (fun a => match a with
      | ⟨0, _⟩ => by show (0 : ℕ) = if (1 : ℕ) = 1 then 0 else s.val; rw [if_pos rfl]
      | ⟨1, _⟩ => by show r.val = if (64 : ℕ) = 1 then 0 else r.val; rw [if_neg (by decide)]),
    broadcastInDim_apply _ bcast_S64_S1x64_1 _ (ix2 (0 : Fin 1) r) (ix1 r) (fun a => match a with
      | ⟨0, _⟩ => by show r.val = if (64 : ℕ) = 1 then 0 else r.val; rw [if_neg (by decide)]),
    broadcastInDim_apply _ bcast_S8x1_S8x64_0_1 _ (ix2 s r) (ix2 s (0 : Fin 1)) (fun a => match a with
      | ⟨0, _⟩ => by show s.val = if (8 : ℕ) = 1 then 0 else s.val; rw [if_neg (by decide)]
      | ⟨1, _⟩ => by show (0 : ℕ) = if (1 : ℕ) = 1 then 0 else r.val; rw [if_pos rfl]),
    broadcastInDim_apply _ bcast_S8_S8x1_0 _ (ix2 s (0 : Fin 1)) (ix1 s) (fun a => match a with
      | ⟨0, _⟩ => by show s.val = if (8 : ℕ) = 1 then 0 else s.val; rw [if_neg (by decide)])]
  rfl

/-- The flattened, rank-masked first-stage weight as the host computes it. -/
def aFlat (A : FVec Ideal S8x3x64x4096 .f32) (ranks : IVec S8 32) : FVec Ideal S1536x4096 .bf16 :=
  truncf .bf16 (shapeCast S1536x4096 (transpose S3x8x64x4096 [1, 0, 2, 3]
    (mulf A (broadcastInDim S8x3x64x4096 ![0, 1, 2, 3] bcast_S8x1x64x1_S8x3x64x4096_0_1_2_3
      (broadcastInDim S8x1x64x1 ![0, 2] bcast_S8x64_S8x1x64x1_0_2 (rankMaskArr ranks))))
    transposes_S8x3x64x4096_S3x8x64x4096_1_0_2_3) shapeCasts_S3x8x64x4096_S1536x4096) bitsLt_bf16_f32

/-- Flattened row 512·mo + p of it is slot p / 64, module mo, rank p % 64 of the masked weight. -/
theorem aFlat_apply (A : FVec Ideal S8x3x64x4096 .f32) (ranks : IVec S8 32) (mo : Fin 3) (p : Fin 512) (h : Fin 4096)
    (q : Fin 1536) (hq : q.val = 512 * mo.val + p.val) :
    aFlat A ranks (ix2 q h) = aEff A ranks (slotOf p) mo (rankOf p) h := by
  unfold aFlat aEff
  have hp := p.isLt
  have hm := mo.isLt
  rw [truncf_apply,
    shapeCast_apply _ shapeCasts_S3x8x64x4096_S1536x4096 (ix2 q h) (ix4 mo (slotOf p) (rankOf p) h)
      (by rewrite [Shape.rowMajor_val_four, Shape.rowMajor_val_two]
          show ((mo.val * 8 + p.val / 64) * 64 + p.val % 64) * 4096 + h.val = q.val * 4096 + h.val
          rw [hq]; omega),
    transpose_apply [1, 0, 2, 3] _ transposes_S8x3x64x4096_S3x8x64x4096_1_0_2_3 (ix4 mo (slotOf p) (rankOf p) h)
      (ix4 (slotOf p) mo (rankOf p) h) (fun b => match b with
        | ⟨0, _⟩ => rfl
        | ⟨1, _⟩ => rfl
        | ⟨2, _⟩ => rfl
        | ⟨3, _⟩ => rfl),
    mulf_apply,
    broadcastInDim_apply _ bcast_S8x1x64x1_S8x3x64x4096_0_1_2_3 _ (ix4 (slotOf p) mo (rankOf p) h)
      (ix4 (slotOf p) (0 : Fin 1) (rankOf p) (0 : Fin 1)) (fun a => match a with
        | ⟨0, _⟩ => by show p.val / 64 = if (8 : ℕ) = 1 then 0 else p.val / 64; rw [if_neg (by decide)]
        | ⟨1, _⟩ => by show (0 : ℕ) = if (1 : ℕ) = 1 then 0 else mo.val; rw [if_pos rfl]
        | ⟨2, _⟩ => by show p.val % 64 = if (64 : ℕ) = 1 then 0 else p.val % 64; rw [if_neg (by decide)]
        | ⟨3, _⟩ => by show (0 : ℕ) = if (1 : ℕ) = 1 then 0 else h.val; rw [if_pos rfl]),
    broadcastInDim_apply _ bcast_S8x64_S8x1x64x1_0_2 _ (ix4 (slotOf p) (0 : Fin 1) (rankOf p) (0 : Fin 1))
      (ix2 (slotOf p) (rankOf p)) (fun a => match a with
        | ⟨0, _⟩ => by show p.val / 64 = if (8 : ℕ) = 1 then 0 else p.val / 64; rw [if_neg (by decide)]
        | ⟨1, _⟩ => by show p.val % 64 = if (64 : ℕ) = 1 then 0 else p.val % 64; rw [if_neg (by decide)]),
    rankMaskArr_apply]

/-- The flattened second-stage weight as the host computes it. -/
def bFlat (B : FVec Ideal S8x3x4096x64 .f32) : FVec Ideal S3x4096x512 .bf16 :=
  truncf .bf16 (shapeCast S3x4096x512 (transpose S3x4096x8x64 [1, 2, 0, 3] B transposes_S8x3x4096x64_S3x4096x8x64_1_2_0_3)
    shapeCasts_S3x4096x8x64_S3x4096x512) bitsLt_bf16_f32

/-- Position p of it is slot p / 64, rank p % 64. -/
theorem bFlat_apply (B : FVec Ideal S8x3x4096x64 .f32) (mo : Fin 3) (o : Fin 4096) (p : Fin 512) :
    bFlat B (ix3 mo o p) = B (ix4 (slotOf p) mo o (rankOf p)) := by
  unfold bFlat
  have hp := p.isLt
  rw [truncf_apply,
    shapeCast_apply _ shapeCasts_S3x4096x8x64_S3x4096x512 (ix3 mo o p) (ix4 mo o (slotOf p) (rankOf p))
      (by rewrite [Shape.rowMajor_val_four, Shape.rowMajor_val_three]
          show ((mo.val * 4096 + o.val) * 8 + p.val / 64) * 64 + p.val % 64 = (mo.val * 4096 + o.val) * 512 + p.val
          omega),
    transpose_apply [1, 2, 0, 3] _ transposes_S8x3x4096x64_S3x4096x8x64_1_2_0_3 (ix4 mo o (slotOf p) (rankOf p))
      (ix4 (slotOf p) mo o (rankOf p)) (fun b => match b with
        | ⟨0, _⟩ => rfl
        | ⟨1, _⟩ => rfl
        | ⟨2, _⟩ => rfl
        | ⟨3, _⟩ => rfl)]

variable (m : (ℓ : Loc nD τ sig) → Buf (Elt Ideal) ℓ)

/-- What the region finds in its four operand arrays. -/
theorem V_tokens (c : Dev nD) : (V m c main_v16 : S2048x4096.Idx → EReal)
    = (truncf (F := Ideal) .bf16 (m ((c : Thread nD τ).loc main_arg0) : FVec Ideal S2048x4096 .f32) bitsLt_bf16_f32 : FVec Ideal S2048x4096 .bf16) := by
  dsimp only [V, hostOps0]; after_results

theorem V_ids (c : Dev nD) : (V m c main_v17 : S2048x1.Idx → BitVec 32)
    = shapeCast S2048x1 (m ((c : Thread nD τ).loc main_arg3)) shapeCasts_S2048_S2048x1 := by
  dsimp only [V, hostOps0]; after_results; rfl

theorem V_aFlat (c : Dev nD) : (V m c main_v12 : S1536x4096.Idx → EReal)
    = aFlat (m ((c : Thread nD τ).loc main_arg1)) (m ((c : Thread nD τ).loc main_arg4)) := by
  dsimp only [V, hostOps0]; after_results; rfl

theorem V_bFlat (c : Dev nD) : (V m c main_v15 : S3x4096x512.Idx → EReal)
    = bFlat (m ((c : Thread nD τ).loc main_arg2)) := by
  dsimp only [V, hostOps0]; after_results; rfl

end Cert.KernelIdeal.HostVals

end
-- ==== Proof.Bridge.lean ====
/-
  The kernel's result array is the specification's function of the five arguments.

  The arrays the region is launched on are the host's re-layouts of the arguments: flattened row 512·mo + p of the
  first-stage weight is slot p / 64, rank p % 64 of the rank-masked weight, position p of the second-stage weight
  likewise, the token array unchanged, the slot-id column the slot ids. Substituting them, the kernel's sum over the
  512 flattened positions of masked stage-one sums is the masked-intermediate arrangement of the specification.
-/
import proofs.«145626_j84129819394361_2_alg».proof.Proof.KernelValue
import proofs.«145626_j84129819394361_2_alg».proof.Proof.HostVals
import proofs.«145626_j84129819394361_2_alg».proof.Proof.Spec

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.LoraSpec Cert.KernelIdeal.KValue Cert.KernelIdeal.HostVals

variable (m : (ℓ : Loc nD τ sig) → Buf (Elt Ideal) ℓ)

theorem GkAt_eq_outAt (c : Dev nD) (b : Fin 2048) (mo : Fin 3) (o : Fin 4096) :
    GkAt m c b mo o = outAt (m ((c : Thread nD τ).loc main_arg0)) (m ((c : Thread nD τ).loc main_arg1))
      (m ((c : Thread nD τ).loc main_arg2)) (m ((c : Thread nD τ).loc main_arg3)) (m ((c : Thread nD τ).loc main_arg4)) b mo o := by
  refine Eq.trans ?_ (flat_eq_outAt _ _ _ _ _ b mo o)
  unfold GkAt
  refine Finset.sum_congr rfl fun p _ => ?_
  refine congrArg₂ (· * ·) (congrArg₂ (· * ·) (Finset.sum_congr rfl fun h _ => ?_) ?_) ?_
  · show tokArr m c (ix2 b h) * aArr m c (ix2 (colOf mo p) h) = _
    unfold tokArr aArr
    rw [V_tokens, V_aFlat, truncf_apply, aFlat_apply _ _ mo p h (colOf mo p) rfl]
  · unfold tokMask idArr
    rw [V_ids, shapeCast_apply _ shapeCasts_S2048_S2048x1 (ix2 b (0 : Fin 1)) (ix1 b)
      (by rewrite [Shape.rowMajor_val_one, Shape.rowMajor_val_two]; show b.val = b.val * 1 + 0; omega)]
  · show bArr m c (ix3 mo o p) = _
    unfold bArr
    rw [V_bFlat, bFlat_apply]

/-- The kernel's result array is the specification's. -/
theorem Gk_eq_G (c : Dev nD) :
    Gk m c = G (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  exact GkAt_eq_outAt m c _ _ _

end Cert.KernelIdeal.Bridge

end
-- ==== Proof.RefSlots.lean ====
/-
  The slot-by-slot program read against the specification, one slot at a time.

  For slot `s` the program forms the input with the rows of the tokens outside the slot zeroed,
  x̃ₛ[b,h] = X[b,h] · tok(b,s); contracts the slot's slice of the rank-masked weight with it over the hidden index,
  tₛ[m,r,b] = ∑ₕ (A[s,m,r,h] · rank(s,r)) · x̃ₛ[b,h]; contracts the slot's slice of the second-stage weight with that
  over the rank index, yₛ[m,o,b] = ∑ᵣ B[s,m,o,r] · tₛ[m,r,b]; and lays yₛ out as the result array, token b by column
  c = m·4096 + o. Each lemma below reads one of these arrays at explicit coordinates; the index equations are the
  row-major arithmetic of the reshapes (a leading axis of size one dropped; the pair (m, o) flattened into c).
-/
import proofs.«145626_j84129819394361_2_alg».proof.Proof.Gen.ReferenceIdeal.Read
import proofs.«145626_j84129819394361_2_alg».proof.Proof.Spec

noncomputable section

namespace Cert.ReferenceIdeal.RefValue

open Cert.ReferenceIdeal Cert.ReferenceIdeal.Read Idealize.ShloMosaic Idealize.ShloMosaic.ValueIdx Cert.LoraSpec

/-- Module index of a column of the result. -/
abbrev modOf (c : Fin 12288) : Fin 3 := ⟨c.val / 4096, by have h : c.val < 12288 := c.isLt; omega⟩
/-- Output column, within its module, of a column of the result. -/
abbrev colOf (c : Fin 12288) : Fin 4096 := ⟨c.val % 4096, Nat.mod_lt _ (by norm_num)⟩

/-- The first-stage weight multiplied by the rank mask (an iota along the rank axis compared, signed, with the
    slot's rank, read as a number and broadcast over modules and hidden indices) is the specification's masked
    weight. -/
theorem rank_weight_at (x1 : (⟨S8x3x64x4096, .f32⟩ : BufTy).Contents (Elt Ideal)) (x4 : (⟨S8, .i32⟩ : BufTy).Contents (Elt Ideal))
    (s : Fin 8) (m : Fin 3) (r : Fin 64) (h : Fin 4096) :
    val_main_v9 (F := Ideal) x1 x4 (ix4 s m r h) = aEff x1 x4 s m r h := by
  have e : idx_main_v2 (idx_main_v4 (idx_main_v7 (idx_main_v8 (ix4 s m r h)))) = ix1 s :=
    funext fun a => match a with | ⟨0, _⟩ => rfl
  rw [val_main_v9_apply, val_main_v8_apply, val_main_v7_apply, val_main_v6_apply, val_main_v5_apply, val_main_v4_apply,
    val_main_v3_apply, val_main_v2_apply, val_main_v1_apply, val_main_v0_apply, e]
  rfl

/-! ### Slot 0 -/

/-- The input with the rows of the tokens outside slot 0 zeroed, at token `b` and hidden index `h`. -/
theorem masked_input_at_0 (x0 : (⟨S2048x4096, .f32⟩ : BufTy).Contents (Elt Ideal)) (x3 : (⟨S2048, .i32⟩ : BufTy).Contents (Elt Ideal)) (b : Fin 2048) (h : Fin 4096) :
    val_main_v16 (F := Ideal) x0 x3 (ix2 b h) = x0 (ix2 b h) * tokMask x3 b (0 : Fin 8) := by
  have e : idx_main_v14 (idx_main_v15 (ix2 b h)) = ix1 b := funext fun a => match a with | ⟨0, _⟩ => rfl
  rw [val_main_v16_apply, val_main_v15_apply, val_main_v14_apply, val_main_v13_apply, val_main_v12_apply,
    val_main_v11_apply, val_main_c_apply, e]
  rfl

/-- Slot 0's slice of the rank-masked first-stage weight. -/
theorem weight_slice_at_0 (x1 : (⟨S8x3x64x4096, .f32⟩ : BufTy).Contents (Elt Ideal)) (x4 : (⟨S8, .i32⟩ : BufTy).Contents (Elt Ideal)) (m : Fin 3) (r : Fin 64) (h : Fin 4096) :
    val_main_v18 (F := Ideal) x1 x4 (ix3 m r h) = aEff x1 x4 (0 : Fin 8) m r h := by
  have e : idx_main_v17 (idx_main_v18 (ix3 m r h)) = ix4 (0 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v18_apply, val_main_v17_apply, e, rank_weight_at]

/-- Slot 0's first contraction, over the hidden index. -/
theorem first_contraction_at_0 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v19 (F := Ideal) x0 x1 x3 x4 (ix3 m r b)
      = ∑ h : Fin 4096, aEff x1 x4 (0 : Fin 8) m r h * (x0 (ix2 b h) * tokMask x3 b (0 : Fin 8)) := by
  rw [val_main_v19_apply]
  refine Finset.sum_congr rfl fun h _ => ?_
  have el : lidx_main_v19 (ix3 m r b) h = ix3 m r h :=
    funext fun a => match a with | ⟨0, _⟩ => rfl | ⟨1, _⟩ => rfl | ⟨2, _⟩ => rfl
  have er : ridx_main_v19 (ix3 m r b) h = ix2 b h :=
    funext fun a => match a with | ⟨0, _⟩ => rfl | ⟨1, _⟩ => rfl
  rw [el, er, weight_slice_at_0, masked_input_at_0]

/-- Slot 0's slice of the second-stage weight. -/
theorem out_weight_slice_at_0 (x2 : (⟨S8x3x4096x64, .f32⟩ : BufTy).Contents (Elt Ideal)) (m : Fin 3) (o : Fin 4096) (r : Fin 64) :
    val_main_v22 (F := Ideal) x2 (ix3 m o r) = x2 (ix4 (0 : Fin 8) m o r) := by
  have e : idx_main_v21 (idx_main_v22 (ix3 m o r)) = ix4 (0 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v22_apply, val_main_v21_apply, e]

/-- Slot 0's second contraction, over the rank index, is the slot's term of the specification. -/
theorem second_contraction_at_0 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v23 (F := Ideal) x0 x1 x2 x3 x4 (ix3 m o b) = slotTerm x0 x1 x2 x3 x4 b m o (0 : Fin 8) := by
  rw [val_main_v23_apply]
  unfold slotTerm
  refine Finset.sum_congr rfl fun r _ => ?_
  have el : lidx_main_v23 (ix3 m o b) r = ix3 m o r :=
    funext fun a => match a with | ⟨0, _⟩ => rfl | ⟨1, _⟩ => rfl | ⟨2, _⟩ => rfl
  have er : idx_main_v20 (ridx_main_v23 (ix3 m o b) r) = ix3 m r b :=
    funext fun a => match a with | ⟨0, _⟩ => rfl | ⟨1, _⟩ => rfl | ⟨2, _⟩ => rfl
  rw [el, val_main_v20_apply, er, out_weight_slice_at_0, first_contraction_at_0]

/-- Slot 0's product laid out as the result array: column `c` is module `c / 4096`, output column `c % 4096`. -/
theorem slot_product_at_0 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v25 (F := Ideal) x0 x1 x2 x3 x4 (ix2 b c) = slotTerm x0 x1 x2 x3 x4 b (modOf c) (colOf c) (0 : Fin 8) := by
  have e : idx_main_v24 (idx_main_v25 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v25_apply, val_main_v24_apply, e, second_contraction_at_0]

/-! ### Slot 1 -/

/-- The input with the rows of the tokens outside slot 1 zeroed, at token `b` and hidden index `h`. -/
theorem masked_input_at_1 (x0 : (⟨S2048x4096, .f32⟩ : BufTy).Contents (Elt Ideal)) (x3 : (⟨S2048, .i32⟩ : BufTy).Contents (Elt Ideal)) (b : Fin 2048) (h : Fin 4096) :
    val_main_v32 (F := Ideal) x0 x3 (ix2 b h) = x0 (ix2 b h) * tokMask x3 b (1 : Fin 8) := by
  have e : idx_main_v30 (idx_main_v31 (ix2 b h)) = ix1 b := funext fun a => match a with | ⟨0, _⟩ => rfl
  rw [val_main_v32_apply, val_main_v31_apply, val_main_v30_apply, val_main_v29_apply, val_main_v28_apply,
    val_main_v27_apply, val_main_c_0_apply, e]
  rfl

/-- Slot 1's slice of the rank-masked first-stage weight. -/
theorem weight_slice_at_1 (x1 : (⟨S8x3x64x4096, .f32⟩ : BufTy).Contents (Elt Ideal)) (x4 : (⟨S8, .i32⟩ : BufTy).Contents (Elt Ideal)) (m : Fin 3) (r : Fin 64) (h : Fin 4096) :
    val_main_v34 (F := Ideal) x1 x4 (ix3 m r h) = aEff x1 x4 (1 : Fin 8) m r h := by
  have e : idx_main_v33 (idx_main_v34 (ix3 m r h)) = ix4 (1 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v34_apply, val_main_v33_apply, e, rank_weight_at]

/-- Slot 1's first contraction, over the hidden index. -/
theorem first_contraction_at_1 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v35 (F := Ideal) x0 x1 x3 x4 (ix3 m r b)
      = ∑ h : Fin 4096, aEff x1 x4 (1 : Fin 8) m r h * (x0 (ix2 b h) * tokMask x3 b (1 : Fin 8)) := by
  rw [val_main_v35_apply]
  refine Finset.sum_congr rfl fun h _ => ?_
  have el : lidx_main_v35 (ix3 m r b) h = ix3 m r h :=
    funext fun a => match a with | ⟨0, _⟩ => rfl | ⟨1, _⟩ => rfl | ⟨2, _⟩ => rfl
  have er : ridx_main_v35 (ix3 m r b) h = ix2 b h :=
    funext fun a => match a with | ⟨0, _⟩ => rfl | ⟨1, _⟩ => rfl
  rw [el, er, weight_slice_at_1, masked_input_at_1]

/-- Slot 1's slice of the second-stage weight. -/
theorem out_weight_slice_at_1 (x2 : (⟨S8x3x4096x64, .f32⟩ : BufTy).Contents (Elt Ideal)) (m : Fin 3) (o : Fin 4096) (r : Fin 64) :
    val_main_v38 (F := Ideal) x2 (ix3 m o r) = x2 (ix4 (1 : Fin 8) m o r) := by
  have e : idx_main_v37 (idx_main_v38 (ix3 m o r)) = ix4 (1 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v38_apply, val_main_v37_apply, e]

/-- Slot 1's second contraction, over the rank index, is the slot's term of the specification. -/
theorem second_contraction_at_1 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v39 (F := Ideal) x0 x1 x2 x3 x4 (ix3 m o b) = slotTerm x0 x1 x2 x3 x4 b m o (1 : Fin 8) := by
  rw [val_main_v39_apply]
  unfold slotTerm
  refine Finset.sum_congr rfl fun r _ => ?_
  have el : lidx_main_v39 (ix3 m o b) r = ix3 m o r :=
    funext fun a => match a with | ⟨0, _⟩ => rfl | ⟨1, _⟩ => rfl | ⟨2, _⟩ => rfl
  have er : idx_main_v36 (ridx_main_v39 (ix3 m o b) r) = ix3 m r b :=
    funext fun a => match a with | ⟨0, _⟩ => rfl | ⟨1, _⟩ => rfl | ⟨2, _⟩ => rfl
  rw [el, val_main_v36_apply, er, out_weight_slice_at_1, first_contraction_at_1]

/-- Slot 1's product laid out as the result array: column `c` is module `c / 4096`, output column `c % 4096`. -/
theorem slot_product_at_1 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v41 (F := Ideal) x0 x1 x2 x3 x4 (ix2 b c) = slotTerm x0 x1 x2 x3 x4 b (modOf c) (colOf c) (1 : Fin 8) := by
  have e : idx_main_v40 (idx_main_v41 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v41_apply, val_main_v40_apply, e, second_contraction_at_1]

/-! ### Slot 2 -/

/-- The input with the rows of the tokens outside slot 2 zeroed, at token `b` and hidden index `h`. -/
theorem masked_input_at_2 (x0 : (⟨S2048x4096, .f32⟩ : BufTy).Contents (Elt Ideal)) (x3 : (⟨S2048, .i32⟩ : BufTy).Contents (Elt Ideal)) (b : Fin 2048) (h : Fin 4096) :
    val_main_v48 (F := Ideal) x0 x3 (ix2 b h) = x0 (ix2 b h) * tokMask x3 b (2 : Fin 8) := by
  have e : idx_main_v46 (idx_main_v47 (ix2 b h)) = ix1 b := funext fun a => match a with | ⟨0, _⟩ => rfl
  rw [val_main_v48_apply, val_main_v47_apply, val_main_v46_apply, val_main_v45_apply, val_main_v44_apply,
    val_main_v43_apply, val_main_c_1_apply, e]
  rfl

/-- Slot 2's slice of the rank-masked first-stage weight. -/
theorem weight_slice_at_2 (x1 : (⟨S8x3x64x4096, .f32⟩ : BufTy).Contents (Elt Ideal)) (x4 : (⟨S8, .i32⟩ : BufTy).Contents (Elt Ideal)) (m : Fin 3) (r : Fin 64) (h : Fin 4096) :
    val_main_v50 (F := Ideal) x1 x4 (ix3 m r h) = aEff x1 x4 (2 : Fin 8) m r h := by
  have e : idx_main_v49 (idx_main_v50 (ix3 m r h)) = ix4 (2 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v50_apply, val_main_v49_apply, e, rank_weight_at]

/-- Slot 2's first contraction, over the hidden index. -/
theorem first_contraction_at_2 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v51 (F := Ideal) x0 x1 x3 x4 (ix3 m r b)
      = ∑ h : Fin 4096, aEff x1 x4 (2 : Fin 8) m r h * (x0 (ix2 b h) * tokMask x3 b (2 : Fin 8)) := by
  rw [val_main_v51_apply]
  refine Finset.sum_congr rfl fun h _ => ?_
  have el : lidx_main_v51 (ix3 m r b) h = ix3 m r h :=
    funext fun a => match a with | ⟨0, _⟩ => rfl | ⟨1, _⟩ => rfl | ⟨2, _⟩ => rfl
  have er : ridx_main_v51 (ix3 m r b) h = ix2 b h :=
    funext fun a => match a with | ⟨0, _⟩ => rfl | ⟨1, _⟩ => rfl
  rw [el, er, weight_slice_at_2, masked_input_at_2]

/-- Slot 2's slice of the second-stage weight. -/
theorem out_weight_slice_at_2 (x2 : (⟨S8x3x4096x64, .f32⟩ : BufTy).Contents (Elt Ideal)) (m : Fin 3) (o : Fin 4096) (r : Fin 64) :
    val_main_v54 (F := Ideal) x2 (ix3 m o r) = x2 (ix4 (2 : Fin 8) m o r) := by
  have e : idx_main_v53 (idx_main_v54 (ix3 m o r)) = ix4 (2 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v54_apply, val_main_v53_apply, e]

/-- Slot 2's second contraction, over the rank index, is the slot's term of the specification. -/
theorem second_contraction_at_2 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v55 (F := Ideal) x0 x1 x2 x3 x4 (ix3 m o b) = slotTerm x0 x1 x2 x3 x4 b m o (2 : Fin 8) := by
  rw [val_main_v55_apply]
  unfold slotTerm
  refine Finset.sum_congr rfl fun r _ => ?_
  have el : lidx_main_v55 (ix3 m o b) r = ix3 m o r :=
    funext fun a => match a with | ⟨0, _⟩ => rfl | ⟨1, _⟩ => rfl | ⟨2, _⟩ => rfl
  have er : idx_main_v52 (ridx_main_v55 (ix3 m o b) r) = ix3 m r b :=
    funext fun a => match a with | ⟨0, _⟩ => rfl | ⟨1, _⟩ => rfl | ⟨2, _⟩ => rfl
  rw [el, val_main_v52_apply, er, out_weight_slice_at_2, first_contraction_at_2]

/-- Slot 2's product laid out as the result array: column `c` is module `c / 4096`, output column `c % 4096`. -/
theorem slot_product_at_2 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v57 (F := Ideal) x0 x1 x2 x3 x4 (ix2 b c) = slotTerm x0 x1 x2 x3 x4 b (modOf c) (colOf c) (2 : Fin 8) := by
  have e : idx_main_v56 (idx_main_v57 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v57_apply, val_main_v56_apply, e, second_contraction_at_2]

/-! ### Slot 3 -/

/-- The input with the rows of the tokens outside slot 3 zeroed, at token `b` and hidden index `h`. -/
theorem masked_input_at_3 (x0 : (⟨S2048x4096, .f32⟩ : BufTy).Contents (Elt Ideal)) (x3 : (⟨S2048, .i32⟩ : BufTy).Contents (Elt Ideal)) (b : Fin 2048) (h : Fin 4096) :
    val_main_v64 (F := Ideal) x0 x3 (ix2 b h) = x0 (ix2 b h) * tokMask x3 b (3 : Fin 8) := by
  have e : idx_main_v62 (idx_main_v63 (ix2 b h)) = ix1 b := funext fun a => match a with | ⟨0, _⟩ => rfl
  rw [val_main_v64_apply, val_main_v63_apply, val_main_v62_apply, val_main_v61_apply, val_main_v60_apply,
    val_main_v59_apply, val_main_c_2_apply, e]
  rfl

/-- Slot 3's slice of the rank-masked first-stage weight. -/
theorem weight_slice_at_3 (x1 : (⟨S8x3x64x4096, .f32⟩ : BufTy).Contents (Elt Ideal)) (x4 : (⟨S8, .i32⟩ : BufTy).Contents (Elt Ideal)) (m : Fin 3) (r : Fin 64) (h : Fin 4096) :
    val_main_v66 (F := Ideal) x1 x4 (ix3 m r h) = aEff x1 x4 (3 : Fin 8) m r h := by
  have e : idx_main_v65 (idx_main_v66 (ix3 m r h)) = ix4 (3 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v66_apply, val_main_v65_apply, e, rank_weight_at]

/-- Slot 3's first contraction, over the hidden index. -/
theorem first_contraction_at_3 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v67 (F := Ideal) x0 x1 x3 x4 (ix3 m r b)
      = ∑ h : Fin 4096, aEff x1 x4 (3 : Fin 8) m r h * (x0 (ix2 b h) * tokMask x3 b (3 : Fin 8)) := by
  rw [val_main_v67_apply]
  refine Finset.sum_congr rfl fun h _ => ?_
  have el : lidx_main_v67 (ix3 m r b) h = ix3 m r h :=
    funext fun a => match a with | ⟨0, _⟩ => rfl | ⟨1, _⟩ => rfl | ⟨2, _⟩ => rfl
  have er : ridx_main_v67 (ix3 m r b) h = ix2 b h :=
    funext fun a => match a with | ⟨0, _⟩ => rfl | ⟨1, _⟩ => rfl
  rw [el, er, weight_slice_at_3, masked_input_at_3]

/-- Slot 3's slice of the second-stage weight. -/
theorem out_weight_slice_at_3 (x2 : (⟨S8x3x4096x64, .f32⟩ : BufTy).Contents (Elt Ideal)) (m : Fin 3) (o : Fin 4096) (r : Fin 64) :
    val_main_v70 (F := Ideal) x2 (ix3 m o r) = x2 (ix4 (3 : Fin 8) m o r) := by
  have e : idx_main_v69 (idx_main_v70 (ix3 m o r)) = ix4 (3 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v70_apply, val_main_v69_apply, e]

/-- Slot 3's second contraction, over the rank index, is the slot's term of the specification. -/
theorem second_contraction_at_3 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v71 (F := Ideal) x0 x1 x2 x3 x4 (ix3 m o b) = slotTerm x0 x1 x2 x3 x4 b m o (3 : Fin 8) := by
  rw [val_main_v71_apply]
  unfold slotTerm
  refine Finset.sum_congr rfl fun r _ => ?_
  have el : lidx_main_v71 (ix3 m o b) r = ix3 m o r :=
    funext fun a => match a with | ⟨0, _⟩ => rfl | ⟨1, _⟩ => rfl | ⟨2, _⟩ => rfl
  have er : idx_main_v68 (ridx_main_v71 (ix3 m o b) r) = ix3 m r b :=
    funext fun a => match a with | ⟨0, _⟩ => rfl | ⟨1, _⟩ => rfl | ⟨2, _⟩ => rfl
  rw [el, val_main_v68_apply, er, out_weight_slice_at_3, first_contraction_at_3]

/-- Slot 3's product laid out as the result array: column `c` is module `c / 4096`, output column `c % 4096`. -/
theorem slot_product_at_3 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v73 (F := Ideal) x0 x1 x2 x3 x4 (ix2 b c) = slotTerm x0 x1 x2 x3 x4 b (modOf c) (colOf c) (3 : Fin 8) := by
  have e : idx_main_v72 (idx_main_v73 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v73_apply, val_main_v72_apply, e, second_contraction_at_3]

/-! ### Slot 4 -/

/-- The input with the rows of the tokens outside slot 4 zeroed, at token `b` and hidden index `h`. -/
theorem masked_input_at_4 (x0 : (⟨S2048x4096, .f32⟩ : BufTy).Contents (Elt Ideal)) (x3 : (⟨S2048, .i32⟩ : BufTy).Contents (Elt Ideal)) (b : Fin 2048) (h : Fin 4096) :
    val_main_v80 (F := Ideal) x0 x3 (ix2 b h) = x0 (ix2 b h) * tokMask x3 b (4 : Fin 8) := by
  have e : idx_main_v78 (idx_main_v79 (ix2 b h)) = ix1 b := funext fun a => match a with | ⟨0, _⟩ => rfl
  rw [val_main_v80_apply, val_main_v79_apply, val_main_v78_apply, val_main_v77_apply, val_main_v76_apply,
    val_main_v75_apply, val_main_c_3_apply, e]
  rfl

/-- Slot 4's slice of the rank-masked first-stage weight. -/
theorem weight_slice_at_4 (x1 : (⟨S8x3x64x4096, .f32⟩ : BufTy).Contents (Elt Ideal)) (x4 : (⟨S8, .i32⟩ : BufTy).Contents (Elt Ideal)) (m : Fin 3) (r : Fin 64) (h : Fin 4096) :
    val_main_v82 (F := Ideal) x1 x4 (ix3 m r h) = aEff x1 x4 (4 : Fin 8) m r h := by
  have e : idx_main_v81 (idx_main_v82 (ix3 m r h)) = ix4 (4 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v82_apply, val_main_v81_apply, e, rank_weight_at]

/-- Slot 4's first contraction, over the hidden index. -/
theorem first_contraction_at_4 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v83 (F := Ideal) x0 x1 x3 x4 (ix3 m r b)
      = ∑ h : Fin 4096, aEff x1 x4 (4 : Fin 8) m r h * (x0 (ix2 b h) * tokMask x3 b (4 : Fin 8)) := by
  rw [val_main_v83_apply]
  refine Finset.sum_congr rfl fun h _ => ?_
  have el : lidx_main_v83 (ix3 m r b) h = ix3 m r h :=
    funext fun a => match a with | ⟨0, _⟩ => rfl | ⟨1, _⟩ => rfl | ⟨2, _⟩ => rfl
  have er : ridx_main_v83 (ix3 m r b) h = ix2 b h :=
    funext fun a => match a with | ⟨0, _⟩ => rfl | ⟨1, _⟩ => rfl
  rw [el, er, weight_slice_at_4, masked_input_at_4]

/-- Slot 4's slice of the second-stage weight. -/
theorem out_weight_slice_at_4 (x2 : (⟨S8x3x4096x64, .f32⟩ : BufTy).Contents (Elt Ideal)) (m : Fin 3) (o : Fin 4096) (r : Fin 64) :
    val_main_v86 (F := Ideal) x2 (ix3 m o r) = x2 (ix4 (4 : Fin 8) m o r) := by
  have e : idx_main_v85 (idx_main_v86 (ix3 m o r)) = ix4 (4 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v86_apply, val_main_v85_apply, e]

/-- Slot 4's second contraction, over the rank index, is the slot's term of the specification. -/
theorem second_contraction_at_4 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v87 (F := Ideal) x0 x1 x2 x3 x4 (ix3 m o b) = slotTerm x0 x1 x2 x3 x4 b m o (4 : Fin 8) := by
  rw [val_main_v87_apply]
  unfold slotTerm
  refine Finset.sum_congr rfl fun r _ => ?_
  have el : lidx_main_v87 (ix3 m o b) r = ix3 m o r :=
    funext fun a => match a with | ⟨0, _⟩ => rfl | ⟨1, _⟩ => rfl | ⟨2, _⟩ => rfl
  have er : idx_main_v84 (ridx_main_v87 (ix3 m o b) r) = ix3 m r b :=
    funext fun a => match a with | ⟨0, _⟩ => rfl | ⟨1, _⟩ => rfl | ⟨2, _⟩ => rfl
  rw [el, val_main_v84_apply, er, out_weight_slice_at_4, first_contraction_at_4]

/-- Slot 4's product laid out as the result array: column `c` is module `c / 4096`, output column `c % 4096`. -/
theorem slot_product_at_4 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v89 (F := Ideal) x0 x1 x2 x3 x4 (ix2 b c) = slotTerm x0 x1 x2 x3 x4 b (modOf c) (colOf c) (4 : Fin 8) := by
  have e : idx_main_v88 (idx_main_v89 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v89_apply, val_main_v88_apply, e, second_contraction_at_4]

/-! ### Slot 5 -/

/-- The input with the rows of the tokens outside slot 5 zeroed, at token `b` and hidden index `h`. -/
theorem masked_input_at_5 (x0 : (⟨S2048x4096, .f32⟩ : BufTy).Contents (Elt Ideal)) (x3 : (⟨S2048, .i32⟩ : BufTy).Contents (Elt Ideal)) (b : Fin 2048) (h : Fin 4096) :
    val_main_v96 (F := Ideal) x0 x3 (ix2 b h) = x0 (ix2 b h) * tokMask x3 b (5 : Fin 8) := by
  have e : idx_main_v94 (idx_main_v95 (ix2 b h)) = ix1 b := funext fun a => match a with | ⟨0, _⟩ => rfl
  rw [val_main_v96_apply, val_main_v95_apply, val_main_v94_apply, val_main_v93_apply, val_main_v92_apply,
    val_main_v91_apply, val_main_c_4_apply, e]
  rfl

/-- Slot 5's slice of the rank-masked first-stage weight. -/
theorem weight_slice_at_5 (x1 : (⟨S8x3x64x4096, .f32⟩ : BufTy).Contents (Elt Ideal)) (x4 : (⟨S8, .i32⟩ : BufTy).Contents (Elt Ideal)) (m : Fin 3) (r : Fin 64) (h : Fin 4096) :
    val_main_v98 (F := Ideal) x1 x4 (ix3 m r h) = aEff x1 x4 (5 : Fin 8) m r h := by
  have e : idx_main_v97 (idx_main_v98 (ix3 m r h)) = ix4 (5 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v98_apply, val_main_v97_apply, e, rank_weight_at]

/-- Slot 5's first contraction, over the hidden index. -/
theorem first_contraction_at_5 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v99 (F := Ideal) x0 x1 x3 x4 (ix3 m r b)
      = ∑ h : Fin 4096, aEff x1 x4 (5 : Fin 8) m r h * (x0 (ix2 b h) * tokMask x3 b (5 : Fin 8)) := by
  rw [val_main_v99_apply]
  refine Finset.sum_congr rfl fun h _ => ?_
  have el : lidx_main_v99 (ix3 m r b) h = ix3 m r h :=
    funext fun a => match a with | ⟨0, _⟩ => rfl | ⟨1, _⟩ => rfl | ⟨2, _⟩ => rfl
  have er : ridx_main_v99 (ix3 m r b) h = ix2 b h :=
    funext fun a => match a with | ⟨0, _⟩ => rfl | ⟨1, _⟩ => rfl
  rw [el, er, weight_slice_at_5, masked_input_at_5]

/-- Slot 5's slice of the second-stage weight. -/
theorem out_weight_slice_at_5 (x2 : (⟨S8x3x4096x64, .f32⟩ : BufTy).Contents (Elt Ideal)) (m : Fin 3) (o : Fin 4096) (r : Fin 64) :
    val_main_v102 (F := Ideal) x2 (ix3 m o r) = x2 (ix4 (5 : Fin 8) m o r) := by
  have e : idx_main_v101 (idx_main_v102 (ix3 m o r)) = ix4 (5 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v102_apply, val_main_v101_apply, e]

/-- Slot 5's second contraction, over the rank index, is the slot's term of the specification. -/
theorem second_contraction_at_5 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v103 (F := Ideal) x0 x1 x2 x3 x4 (ix3 m o b) = slotTerm x0 x1 x2 x3 x4 b m o (5 : Fin 8) := by
  rw [val_main_v103_apply]
  unfold slotTerm
  refine Finset.sum_congr rfl fun r _ => ?_
  have el : lidx_main_v103 (ix3 m o b) r = ix3 m o r :=
    funext fun a => match a with | ⟨0, _⟩ => rfl | ⟨1, _⟩ => rfl | ⟨2, _⟩ => rfl
  have er : idx_main_v100 (ridx_main_v103 (ix3 m o b) r) = ix3 m r b :=
    funext fun a => match a with | ⟨0, _⟩ => rfl | ⟨1, _⟩ => rfl | ⟨2, _⟩ => rfl
  rw [el, val_main_v100_apply, er, out_weight_slice_at_5, first_contraction_at_5]

/-- Slot 5's product laid out as the result array: column `c` is module `c / 4096`, output column `c % 4096`. -/
theorem slot_product_at_5 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v105 (F := Ideal) x0 x1 x2 x3 x4 (ix2 b c) = slotTerm x0 x1 x2 x3 x4 b (modOf c) (colOf c) (5 : Fin 8) := by
  have e : idx_main_v104 (idx_main_v105 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v105_apply, val_main_v104_apply, e, second_contraction_at_5]

/-! ### Slot 6 -/

/-- The input with the rows of the tokens outside slot 6 zeroed, at token `b` and hidden index `h`. -/
theorem masked_input_at_6 (x0 : (⟨S2048x4096, .f32⟩ : BufTy).Contents (Elt Ideal)) (x3 : (⟨S2048, .i32⟩ : BufTy).Contents (Elt Ideal)) (b : Fin 2048) (h : Fin 4096) :
    val_main_v112 (F := Ideal) x0 x3 (ix2 b h) = x0 (ix2 b h) * tokMask x3 b (6 : Fin 8) := by
  have e : idx_main_v110 (idx_main_v111 (ix2 b h)) = ix1 b := funext fun a => match a with | ⟨0, _⟩ => rfl
  rw [val_main_v112_apply, val_main_v111_apply, val_main_v110_apply, val_main_v109_apply, val_main_v108_apply,
    val_main_v107_apply, val_main_c_5_apply, e]
  rfl

/-- Slot 6's slice of the rank-masked first-stage weight. -/
theorem weight_slice_at_6 (x1 : (⟨S8x3x64x4096, .f32⟩ : BufTy).Contents (Elt Ideal)) (x4 : (⟨S8, .i32⟩ : BufTy).Contents (Elt Ideal)) (m : Fin 3) (r : Fin 64) (h : Fin 4096) :
    val_main_v114 (F := Ideal) x1 x4 (ix3 m r h) = aEff x1 x4 (6 : Fin 8) m r h := by
  have e : idx_main_v113 (idx_main_v114 (ix3 m r h)) = ix4 (6 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v114_apply, val_main_v113_apply, e, rank_weight_at]

/-- Slot 6's first contraction, over the hidden index. -/
theorem first_contraction_at_6 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v115 (F := Ideal) x0 x1 x3 x4 (ix3 m r b)
      = ∑ h : Fin 4096, aEff x1 x4 (6 : Fin 8) m r h * (x0 (ix2 b h) * tokMask x3 b (6 : Fin 8)) := by
  rw [val_main_v115_apply]
  refine Finset.sum_congr rfl fun h _ => ?_
  have el : lidx_main_v115 (ix3 m r b) h = ix3 m r h :=
    funext fun a => match a with | ⟨0, _⟩ => rfl | ⟨1, _⟩ => rfl | ⟨2, _⟩ => rfl
  have er : ridx_main_v115 (ix3 m r b) h = ix2 b h :=
    funext fun a => match a with | ⟨0, _⟩ => rfl | ⟨1, _⟩ => rfl
  rw [el, er, weight_slice_at_6, masked_input_at_6]

/-- Slot 6's slice of the second-stage weight. -/
theorem out_weight_slice_at_6 (x2 : (⟨S8x3x4096x64, .f32⟩ : BufTy).Contents (Elt Ideal)) (m : Fin 3) (o : Fin 4096) (r : Fin 64) :
    val_main_v118 (F := Ideal) x2 (ix3 m o r) = x2 (ix4 (6 : Fin 8) m o r) := by
  have e : idx_main_v117 (idx_main_v118 (ix3 m o r)) = ix4 (6 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v118_apply, val_main_v117_apply, e]

/-- Slot 6's second contraction, over the rank index, is the slot's term of the specification. -/
theorem second_contraction_at_6 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v119 (F := Ideal) x0 x1 x2 x3 x4 (ix3 m o b) = slotTerm x0 x1 x2 x3 x4 b m o (6 : Fin 8) := by
  rw [val_main_v119_apply]
  unfold slotTerm
  refine Finset.sum_congr rfl fun r _ => ?_
  have el : lidx_main_v119 (ix3 m o b) r = ix3 m o r :=
    funext fun a => match a with | ⟨0, _⟩ => rfl | ⟨1, _⟩ => rfl | ⟨2, _⟩ => rfl
  have er : idx_main_v116 (ridx_main_v119 (ix3 m o b) r) = ix3 m r b :=
    funext fun a => match a with | ⟨0, _⟩ => rfl | ⟨1, _⟩ => rfl | ⟨2, _⟩ => rfl
  rw [el, val_main_v116_apply, er, out_weight_slice_at_6, first_contraction_at_6]

/-- Slot 6's product laid out as the result array: column `c` is module `c / 4096`, output column `c % 4096`. -/
theorem slot_product_at_6 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v121 (F := Ideal) x0 x1 x2 x3 x4 (ix2 b c) = slotTerm x0 x1 x2 x3 x4 b (modOf c) (colOf c) (6 : Fin 8) := by
  have e : idx_main_v120 (idx_main_v121 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v121_apply, val_main_v120_apply, e, second_contraction_at_6]

/-! ### Slot 7 -/

/-- The input with the rows of the tokens outside slot 7 zeroed, at token `b` and hidden index `h`. -/
theorem masked_input_at_7 (x0 : (⟨S2048x4096, .f32⟩ : BufTy).Contents (Elt Ideal)) (x3 : (⟨S2048, .i32⟩ : BufTy).Contents (Elt Ideal)) (b : Fin 2048) (h : Fin 4096) :
    val_main_v128 (F := Ideal) x0 x3 (ix2 b h) = x0 (ix2 b h) * tokMask x3 b (7 : Fin 8) := by
  have e : idx_main_v126 (idx_main_v127 (ix2 b h)) = ix1 b := funext fun a => match a with | ⟨0, _⟩ => rfl
  rw [val_main_v128_apply, val_main_v127_apply, val_main_v126_apply, val_main_v125_apply, val_main_v124_apply,
    val_main_v123_apply, val_main_c_6_apply, e]
  rfl

/-- Slot 7's slice of the rank-masked first-stage weight. -/
theorem weight_slice_at_7 (x1 : (⟨S8x3x64x4096, .f32⟩ : BufTy).Contents (Elt Ideal)) (x4 : (⟨S8, .i32⟩ : BufTy).Contents (Elt Ideal)) (m : Fin 3) (r : Fin 64) (h : Fin 4096) :
    val_main_v130 (F := Ideal) x1 x4 (ix3 m r h) = aEff x1 x4 (7 : Fin 8) m r h := by
  have e : idx_main_v129 (idx_main_v130 (ix3 m r h)) = ix4 (7 : Fin 8) m r h := funext fun a => Fin.ext (by
    have hm : m.val < 3 := m.isLt
    have hr : r.val < 64 := r.isLt
    have hh : h.val < 4096 := h.isLt
    match a with
    | ⟨0, _⟩ => rfl
    | ⟨1, _⟩ => show ((m.val * 64 + r.val) * 4096 + h.val) / 262144 % 3 = m.val; omega
    | ⟨2, _⟩ => show ((m.val * 64 + r.val) * 4096 + h.val) / 4096 % 64 = r.val; omega
    | ⟨3, _⟩ => show ((m.val * 64 + r.val) * 4096 + h.val) % 4096 = h.val; omega)
  rw [val_main_v130_apply, val_main_v129_apply, e, rank_weight_at]

/-- Slot 7's first contraction, over the hidden index. -/
theorem first_contraction_at_7 (x0 : (⟨S2048x4096, .f32⟩ : BufTy).Contents (Elt Ideal)) (x1 : (⟨S8x3x64x4096, .f32⟩ : BufTy).Contents (Elt Ideal)) (x3 : (⟨S2048, .i32⟩ : BufTy).Contents (Elt Ideal)) (x4 : (⟨S8, .i32⟩ : BufTy).Contents (Elt Ideal)) (m : Fin 3) (r : Fin 64) (b : Fin 2048) :
    val_main_v131 (F := Ideal) x0 x1 x3 x4 (ix3 m r b)
      = ∑ h : Fin 4096, aEff x1 x4 (7 : Fin 8) m r h * (x0 (ix2 b h) * tokMask x3 b (7 : Fin 8)) := by
  rw [val_main_v131_apply]
  refine Finset.sum_congr rfl fun h _ => ?_
  have el : lidx_main_v131 (ix3 m r b) h = ix3 m r h :=
    funext fun a => match a with | ⟨0, _⟩ => rfl | ⟨1, _⟩ => rfl | ⟨2, _⟩ => rfl
  have er : ridx_main_v131 (ix3 m r b) h = ix2 b h :=
    funext fun a => match a with | ⟨0, _⟩ => rfl | ⟨1, _⟩ => rfl
  rw [el, er, weight_slice_at_7, masked_input_at_7]

/-- Slot 7's slice of the second-stage weight. -/
theorem out_weight_slice_at_7 (x2 : (⟨S8x3x4096x64, .f32⟩ : BufTy).Contents (Elt Ideal)) (m : Fin 3) (o : Fin 4096) (r : Fin 64) :
    val_main_v134 (F := Ideal) x2 (ix3 m o r) = x2 (ix4 (7 : Fin 8) m o r) := by
  have e : idx_main_v133 (idx_main_v134 (ix3 m o r)) = ix4 (7 : Fin 8) m o r := funext fun a => Fin.ext (by
    have hm : m.val < 3 := m.isLt
    have ho : o.val < 4096 := o.isLt
    have hr : r.val < 64 := r.isLt
    match a with
    | ⟨0, _⟩ => rfl
    | ⟨1, _⟩ => show ((m.val * 4096 + o.val) * 64 + r.val) / 262144 % 3 = m.val; omega
    | ⟨2, _⟩ => show ((m.val * 4096 + o.val) * 64 + r.val) / 64 % 4096 = o.val; omega
    | ⟨3, _⟩ => show ((m.val * 4096 + o.val) * 64 + r.val) % 64 = r.val; omega)
  rw [val_main_v134_apply, val_main_v133_apply, e]

/-- Slot 7's second contraction, over the rank index, is the slot's term of the specification. -/
theorem second_contraction_at_7 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (m : Fin 3) (o : Fin 4096) (b : Fin 2048) :
    val_main_v135 (F := Ideal) x0 x1 x2 x3 x4 (ix3 m o b) = slotTerm x0 x1 x2 x3 x4 b m o (7 : Fin 8) := by
  rw [val_main_v135_apply]
  unfold slotTerm
  refine Finset.sum_congr rfl fun r _ => ?_
  have el : lidx_main_v135 (ix3 m o b) r = ix3 m o r :=
    funext fun a => match a with | ⟨0, _⟩ => rfl | ⟨1, _⟩ => rfl | ⟨2, _⟩ => rfl
  have er : idx_main_v132 (ridx_main_v135 (ix3 m o b) r) = ix3 m r b :=
    funext fun a => match a with | ⟨0, _⟩ => rfl | ⟨1, _⟩ => rfl | ⟨2, _⟩ => rfl
  rw [el, val_main_v132_apply, er, out_weight_slice_at_7, first_contraction_at_7]

/-- Slot 7's product laid out as the result array: column `c` is module `c / 4096`, output column `c % 4096`. -/
theorem slot_product_at_7 (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) (b : Fin 2048) (c : Fin 12288) :
    val_main_v137 (F := Ideal) x0 x1 x2 x3 x4 (ix2 b c) = slotTerm x0 x1 x2 x3 x4 b (modOf c) (colOf c) (7 : Fin 8) := by
  have e : idx_main_v136 (idx_main_v137 (ix2 b c)) = ix3 (modOf c) (colOf c) b := funext fun a => Fin.ext (by
    have hb : b.val < 2048 := b.isLt
    have hc : c.val < 12288 := c.isLt
    match a with
    | ⟨0, _⟩ => show (b.val * 12288 + c.val) / 4096 % 3 = c.val / 4096; omega
    | ⟨1, _⟩ => show (b.val * 12288 + c.val) % 4096 = c.val % 4096; omega
    | ⟨2, _⟩ => show (b.val * 12288 + c.val) / 12288 = b.val; omega)
  rw [val_main_v137_apply, val_main_v136_apply, e, second_contraction_at_7]

end Cert.ReferenceIdeal.RefValue

end
-- ==== Proof.RefIsG.lean ====
/-
  The slot-by-slot program's result is the specification's array: the program adds the eight slot products, in slot
  order, to an array of zeros, and each slot product at token b, column c is that slot's term of
  out[b, c] = ∑ₛ ∑ᵣ B[s,m,o,r] · ∑ₕ (A[s,m,r,h] · rank(s,r)) · (X[b,h] · tok(b,s)), with m = c / 4096 and o = c % 4096.
-/
import proofs.«145626_j84129819394361_2_alg».proof.Proof.RefSlots

noncomputable section

namespace Cert.ReferenceIdeal.RefValue

open Cert.ReferenceIdeal Cert.ReferenceIdeal.Read Idealize.ShloMosaic Idealize.ShloMosaic.ValueIdx Cert.LoraSpec

/-- The reference's result is the specification's: the eight slot products added, in slot order, to a zero array. -/
theorem ref_eq_G (x0 : (⟨S2048x4096, .f32⟩ : BufTy).Contents (Elt Ideal)) (x1 : (⟨S8x3x64x4096, .f32⟩ : BufTy).Contents (Elt Ideal)) (x2 : (⟨S8x3x4096x64, .f32⟩ : BufTy).Contents (Elt Ideal)) (x3 : (⟨S2048, .i32⟩ : BufTy).Contents (Elt Ideal)) (x4 : (⟨S8, .i32⟩ : BufTy).Contents (Elt Ideal)) :
    Cert.ReferenceIdeal.Read.val_main_v138 (F := Ideal) x0 x1 x2 x3 x4 = Cert.LoraSpec.G x0 x1 x2 x3 x4 := by
  funext i
  obtain ⟨b, c, rfl⟩ : ∃ (b : Fin 2048) (c : Fin 12288), i = ix2 b c := ⟨i 0, i 1, eq_ix2 i⟩
  show _ = outAt x0 x1 x2 x3 x4 b (modOf c) (colOf c)
  unfold outAt
  rw [Fin.sum_univ_eight, val_main_v138_apply, val_main_v122_apply, val_main_v106_apply, val_main_v90_apply,
    val_main_v74_apply, val_main_v58_apply, val_main_v42_apply, val_main_v26_apply, val_main_v10_apply, val_main_cst_apply,
    slot_product_at_0, slot_product_at_1, slot_product_at_2, slot_product_at_3, slot_product_at_4, slot_product_at_5,
    slot_product_at_6, slot_product_at_7]
  simp only [Ideal.addf_def, Ideal.ofBits_def, Ideal.ofBits_zero_f32, zero_add]

end Cert.ReferenceIdeal.RefValue

end
-- ==== Proof.lean ====
/-
  The claim: the multi-LoRA kernel and its slot-by-slot reference compute the same array over the extended reals.

  Kernel: per token tile, one product of the tile with the whole flattened, rank-masked first-stage weight, kept in a
  scratch across the tile's three modules; per module, the module's 512 columns of it, each masked by whether the
  token's slot is the column's slot, contracted with the module's flattened second-stage weight.
  Reference: for each of the eight slots, the tokens outside the slot zeroed, contracted with the slot's rank-masked
  first-stage weight and then with its second-stage weight, the eight results added.
  Both are the specification's function (Proof/Spec.lean): a zero-or-one weight moves between a sum and its terms, and
  the sum over 512 flattened positions is the sum over 8 slots × 64 ranks. No entry needs to be finite.
  The three frames are the generated ones (the reference's from its generated run); the idealization rewrote nothing.
-/
import proofs.«145626_j84129819394361_2_alg».proof.Defs
import proofs.«145626_j84129819394361_2_alg».proof.Proof.Gen.Kernel
import proofs.«145626_j84129819394361_2_alg».proof.Proof.Gen.Kernel.Skeleton
import proofs.«145626_j84129819394361_2_alg».proof.Proof.Gen.Kernel.Launch
import proofs.«145626_j84129819394361_2_alg».proof.Proof.Gen.Kernel.Points
import proofs.«145626_j84129819394361_2_alg».proof.Proof.Gen.Kernel.Frame
import proofs.«145626_j84129819394361_2_alg».proof.Proof.Gen.KernelIdeal
import proofs.«145626_j84129819394361_2_alg».proof.Proof.Gen.KernelIdeal.Skeleton
import proofs.«145626_j84129819394361_2_alg».proof.Proof.Gen.KernelIdeal.Launch
import proofs.«145626_j84129819394361_2_alg».proof.Proof.Gen.KernelIdeal.Points
import proofs.«145626_j84129819394361_2_alg».proof.Proof.Gen.KernelIdeal.Frame
import proofs.«145626_j84129819394361_2_alg».proof.Proof.Gen.ReferenceIdeal
import proofs.«145626_j84129819394361_2_alg».proof.Proof.Gen.Pre_finite_inputs
import proofs.«145626_j84129819394361_2_alg».proof.Proof.Gen.KernelIdeal.Value
import proofs.«145626_j84129819394361_2_alg».proof.Proof.Gen.ReferenceIdeal.Run
import proofs.«145626_j84129819394361_2_alg».proof.Proof.Gen.ReferenceIdeal.Read
import proofs.«145626_j84129819394361_2_alg».proof.Proof.KernelValue
import proofs.«145626_j84129819394361_2_alg».proof.Proof.Bridge
import proofs.«145626_j84129819394361_2_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of arguments that agree. -/
theorem algebraic : Cert.algebraic_KernelIdeal_ReferenceIdeal := by
  intro m ρ m' ρ' _ hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, Cert.ReferenceIdeal.RefValue.ref_eq_G,
    (hagree c).1, (hagree c).2.1, (hagree c).2.2.1, (hagree c).2.2.2.1, (hagree c).2.2.2.2]
  exact (Cert.KernelIdeal.Bridge.Gk_eq_G m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
